-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512x20 : S_.BroadcastsInDim S1024x512x20 (![] : Fin 0 → Fin S1024x512x20.rank)
  reducesTo_S1024x512x20_S_d0_1_2 : S1024x512x20.ReducesTo [0, 1, 2] S_
  bcast_S_S1536x1 : S_.BroadcastsInDim S1536x1 (![] : Fin 0 → Fin S1536x1.rank)
  reducesTo_S1536x1_S_d0_1 : S1536x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x512x20 .f32) (main_arg8 : FVec F S1536x1 .f32) (main_arg9 : FVec F S1 .f32) (main_v33 : IVec S_ 1) : IVec S_ 1 :=
  let main_v34 : FVec F S1024x512x20 .f32 := Host.absf main_arg7
  let main_cst_12 : FVec F S_ .f32 := constant S_ .f32 0x7F800000#32
  let main_v35 : FVec F S1024x512x20 .f32 := broadcastInDim S1024x512x20 ![] bcast_S_S1024x512x20 main_cst_12
  let main_v36 : IVec S1024x512x20 1 := cmpf .olt main_v34 main_v35
  let main_c_13 : IVec S_ 1 := constantI S_ 1 1#1
  let main_v37 : IVec S_ 1 := (fun x v => Host.reduce IntOp.andi x v reducesTo_S1024x512x20_S_d0_1_2 h_S_) main_v36 main_c_13
  let main_v38 : IVec S_ 1 := andi main_v33 main_v37
  let main_v39 : FVec F S1536x1 .f32 := Host.absf main_arg8
  let main_cst_14 : FVec F S_ .f32 := constant S_ .f32 0x7F800000#32
  let main_v40 : FVec F S1536x1 .f32 := broadcastInDim S1536x1 ![] bcast_S_S1536x1 main_cst_14
  let main_v41 : IVec S1536x1 1 := cmpf .olt main_v39 main_v40
  let main_c_15 : IVec S_ 1 := constantI S_ 1 1#1
  let main_v42 : IVec S_ 1 := (fun x v => Host.reduce IntOp.andi x v reducesTo_S1536x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1024 .f32) (main_arg5 : FVec F S1024x1024 .f32) (main_arg6 : FVec F S1024 .f32) (main_arg7 : FVec F S1024x512x20 .f32) (main_arg8 : FVec F S1536x1 .f32) (main_arg9 : FVec F S1 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S128x2048 .f32) (main_arg1 : FVec F S2048x2048 .f32) (main_arg2 : FVec F S2048 .f32) (main_arg3 : FVec F S2048x1024 .f32) (main_arg4 : FVec F S1024 .f32) (main_arg5 : FVec F S1024x1024 .f32) (main_arg6 : FVec F S1024 .f32) (main_arg7 : FVec F S1024x512x20 .f32) (main_arg8 : FVec F S1536x1 .f32) (main_arg9 : FVec F S1 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_v13 main_v16
-- ==== Kernel.lean ====
abbrev S128x2048 : Shape := ⟨2, ![128, 2048]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S1x2048 : Shape := ⟨2, ![1, 2048]⟩
abbrev S2048x512 : Shape := ⟨2, ![2048, 512]⟩
abbrev S1x512 : Shape := ⟨2, ![1, 512]⟩
abbrev S128x512 : Shape := ⟨2, ![128, 512]⟩
abbrev S1x1024 : Shape := ⟨2, ![1, 1024]⟩
abbrev S128x1024 : Shape := ⟨2, ![128, 1024]⟩
abbrev S1024x512 : Shape := ⟨2, ![1024, 512]⟩
abbrev S20x1024x512 : Shape := ⟨3, ![20, 1024, 512]⟩
abbrev S20x1024x128 : Shape := ⟨3, ![20, 1024, 128]⟩
abbrev S128x128 : Shape := ⟨2, ![128, 128]⟩
abbrev S128x2560 : Shape := ⟨2, ![128, 2560]⟩
abbrev S1x1024x128 : Shape := ⟨3, ![1, 1024, 128]⟩
abbrev S1024x128 : Shape := ⟨2, ![1024, 128]⟩
abbrev S128x20x128 : Shape := ⟨3, ![128, 20, 128]⟩
abbrev S32x2560 : Shape := ⟨2, ![32, 2560]⟩
abbrev S32x20x128 : Shape := ⟨3, ![32, 20, 128]⟩
abbrev S32x128x128 : Shape := ⟨3, ![32, 128, 128]⟩
abbrev S32x1x128 : Shape := ⟨3, ![32, 1, 128]⟩
abbrev S32x128 : Shape := ⟨2, ![32, 128]⟩
abbrev S128x1x128 : Shape := ⟨3, ![128, 1, 128]⟩
abbrev S1x128x128 : Shape := ⟨3, ![1, 128, 128]⟩
abbrev S128x1536 : Shape := ⟨2, ![128, 1536]⟩
abbrev S128x1 : Shape := ⟨2, ![128, 1]⟩
abbrev S1x1 : Shape := ⟨2, ![1, 1]⟩

abbrev nBuf : Space → Nat
  | .hbm => 24
  | .vmem => 27
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512x20, .f32⟩
  | .hbm, ⟨8, _⟩ => ⟨S1536x1, .f32⟩
  | .hbm, ⟨9, _⟩ => ⟨S1, .f32⟩
  | .hbm, ⟨10, _⟩ => ⟨S128x2048, .bf16⟩
  | .hbm, ⟨11, _⟩ => ⟨S1x2048, .f32⟩
  | .hbm, ⟨12, _⟩ => ⟨S128x2048, .bf16⟩
  | .hbm, ⟨13, _⟩ => ⟨S1x1024, .f32⟩
  | .hbm, ⟨14, _⟩ => ⟨S128x1024, .bf16⟩
  | .hbm, ⟨15, _⟩ => ⟨S1x1024, .f32⟩
  | .hbm, ⟨16, _⟩ => ⟨S128x1024, .f32⟩
  | .hbm, ⟨17, _⟩ => ⟨S20x1024x512, .f32⟩
  | .hbm, ⟨18, _⟩ => ⟨S128x512, .f32⟩
  | .hbm, ⟨19, _⟩ => ⟨S128x1536, .f32⟩
  | .hbm, ⟨20, _⟩ => ⟨S128x1, .f32⟩
  | .hbm, ⟨21, _⟩ => ⟨S1x1, .f32⟩
  | .hbm, ⟨22, _⟩ => ⟨S128x1, .f32⟩
  | .hbm, ⟨23, _⟩ => ⟨S128x1, .f32⟩
  | .local _ .vmem, ⟨0, _⟩ => ⟨S128x2048, .bf16⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S128x512, .bf16⟩
  | .local _ .vmem, ⟨6, _⟩ => ⟨S128x512, .bf16⟩
  | .local _ .vmem, ⟨7, _⟩ => ⟨S128x2048, .bf16⟩
  | .local _ .vmem, ⟨8, _⟩ => ⟨S2048x512, .f32⟩
  | .local _ .vmem, ⟨9, _⟩ => ⟨S2048x512, .f32⟩
  | .local _ .vmem, ⟨10, _⟩ => ⟨S1x512, .f32⟩
  | .local _ .vmem, ⟨11, _⟩ => ⟨S1x512, .f32⟩
  | .local _ .vmem, ⟨12, _⟩ => ⟨S128x512, .bf16⟩
  | .local _ .vmem, ⟨13, _⟩ => ⟨S128x512, .bf16⟩
  | .local _ .vmem, ⟨14, _⟩ => ⟨S128x1024, .bf16⟩
  | .local _ .vmem, ⟨15, _⟩ => ⟨S1024x512, .f32⟩
  | .local _ .vmem, ⟨16, _⟩ => ⟨S1024x512, .f32⟩
  | .local _ .vmem, ⟨17, _⟩ => ⟨S1x512, .f32⟩
  | .local _ .vmem, ⟨18, _⟩ => ⟨S1x512, .f32⟩
  | .local _ .vmem, ⟨19, _⟩ => ⟨S128x512, .f32⟩
  | .local _ .vmem, ⟨20, _⟩ => ⟨S128x512, .f32⟩
  | .local _ .vmem, ⟨21, _⟩ => ⟨S128x1024, .f32⟩
  | .local _ .vmem, ⟨22, _⟩ => ⟨S20x1024x128, .f32⟩
  | .local _ .vmem, ⟨23, _⟩ => ⟨S20x1024x128, .f32⟩
  | .local _ .vmem, ⟨24, _⟩ => ⟨S128x128, .f32⟩
  | .local _ .vmem, ⟨25, _⟩ => ⟨S128x128, .f32⟩
  | .local _ .vmem, ⟨26, _⟩ => ⟨S128x2560, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S128x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

@[reducible] def k3_t1_loop : Scf.Loop 32 :=
  let c0_i32 : BitVec 32 := 0#32
  let c4_i32 : BitVec 32 := 4#32
  let v124 : BitVec 32 := Scalar.addi c0_i32 c4_i32
  let c1_i32 : BitVec 32 := 1#32
  ⟨c0_i32, v124, c1_i32⟩
def k3_mult1 (k3_t1 : Fin k3_t1_loop.trips) : BitVec 32 :=
  let c0_i32 : BitVec 32 := 0#32
  let c1_i32 : BitVec 32 := 1#32
  let arg5 : BitVec 32 := Scf.iv c0_i32 c1_i32 k3_t1
  let c32_i32 : BitVec 32 := 32#32
  let v125 : BitVec 32 := Scalar.muli arg5 c32_i32
  v125
def k3_off1 (k3_t1 : Fin k3_t1_loop.trips) : Fin 2 → Nat :=
  let c0_i32 : BitVec 32 := 0#32
  let c1_i32 : BitVec 32 := 1#32
  let arg5 : BitVec 32 := Scf.iv c0_i32 c1_i32 k3_t1
  let c32_i32 : BitVec 32 := 32#32
  let v125 : BitVec 32 := Scalar.muli arg5 c32_i32
  let v126 : BitVec 32 := v125
  let v127 : Index := Scalar.indexCast v126
  let c0_85 : Index := 0#32
  ![v127.toNat, 0]
def k3_off2 (k3_t1 : Fin k3_t1_loop.trips) : Fin 2 → Nat :=
  let c0_i32 : BitVec 32 := 0#32
  let c1_i32 : BitVec 32 := 1#32
  let arg5 : BitVec 32 := Scf.iv c0_i32 c1_i32 k3_t1
  let c32_i32 : BitVec 32 := 32#32
  let v125 : BitVec 32 := Scalar.muli arg5 c32_i32
  let v126 : BitVec 32 := v125
  let v357 : Index := Scalar.indexCast v126
  let c0_90 : Index := 0#32
  ![v357.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S128x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S20x1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  packedbf16_S128x512_S128x512_0_0 : (Rect.unit (s := S128x512) ![0, 0] S128x512.size inb_S128x512_S128x512_0_0).PackedRows (EltTy.packing .bf16)
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x512_S1024x512_0_0 : ∀ a, (![0, 0] : Fin 2 → Nat) a + S1024x512.size a ≤ S1024x512.size a
  h_S1024x512 : 0 < S1024x512.numel
  transposes_S1024x512x20_S20x1024x512_2_0_1 : S1024x512x20.Transposes [2, 0, 1] S20x1024x512
  inb_S20x1024x128_S1x1024x128_0_0_0 : ∀ a, (![0, 0, 0] : Fin 3 → Nat) a + S1x1024x128.size a ≤ S20x1024x128.size a
  h_S1x1024x128 : 0 < S1x1024x128.numel
  shapeCasts_S1x1024x128_S1024x128 : S1x1024x128.ShapeCasts S1024x128
  inb_S128x2560_S128x128_0_0 : ∀ a, (![0, 0] : Fin 2 → Nat) a + S128x128.size a ≤ S128x2560.size a
  h_S128x128 : 0 < S128x128.numel
  shapeCasts_S128x128_S128x128 : S128x128.ShapeCasts S128x128
  inb_S20x1024x128_S1x1024x128_1_0_0 : ∀ a, (![1, 0, 0] : Fin 3 → Nat) a + S1x1024x128.size a ≤ S20x1024x128.size a
  inb_S128x2560_S128x128_0_128 : ∀ a, (![0, 128] : Fin 2 → Nat) a + S128x128.size a ≤ S128x2560.size a
  inb_S20x1024x128_S1x1024x128_2_0_0 : ∀ a, (![2, 0, 0] : Fin 3 → Nat) a + S1x1024x128.size a ≤ S20x1024x128.size a
  inb_S128x2560_S128x128_0_256 : ∀ a, (![0, 256] : Fin 2 → Nat) a + S128x128.size a ≤ S128x2560.size a
  inb_S20x1024x128_S1x1024x128_3_0_0 : ∀ a, (![3, 0, 0] : Fin 3 → Nat) a + S1x1024x128.size a ≤ S20x1024x128.size a
  inb_S128x2560_S128x128_0_384 : ∀ a, (![0, 384] : Fin 2 → Nat) a + S128x128.size a ≤ S128x2560.size a
  inb_S20x1024x128_S1x1024x128_4_0_0 : ∀ a, (![4, 0, 0] : Fin 3 → Nat) a + S1x1024x128.size a ≤ S20x1024x128.size a
  inb_S128x2560_S128x128_0_512 : ∀ a, (![0, 512] : Fin 2 → Nat) a + S128x128.size a ≤ S128x2560.size a
  inb_S20x1024x128_S1x1024x128_5_0_0 : ∀ a, (![5, 0, 0] : Fin 3 → Nat) a + S1x1024x128.size a ≤ S20x1024x128.size a
  inb_S128x2560_S128x128_0_640 : ∀ a, (![0, 640] : Fin 2 → Nat) a + S128x128.size a ≤ S128x2560.size a
  inb_S20x1024x128_S1x1024x128_6_0_0 : ∀ a, (![6, 0, 0] : Fin 3 → Nat) a + S1x1024x128.size a ≤ S20x1024x128.size a
  inb_S128x2560_S128x128_0_768 : ∀ a, (![0, 768] : Fin 2 → Nat) a + S128x128.size a ≤ S128x2560.size a
  inb_S20x1024x128_S1x1024x128_7_0_0 : ∀ a, (![7, 0, 0] : Fin 3 → Nat) a + S1x1024x128.size a ≤ S20x1024x128.size a
  inb_S128x2560_S128x128_0_896 : ∀ a, (![0, 896] : Fin 2 → Nat) a + S128x128.size a ≤ S128x2560.size a
  inb_S20x1024x128_S1x1024x128_8_0_0 : ∀ a, (![8, 0, 0] : Fin 3 → Nat) a + S1x1024x128.size a ≤ S20x1024x128.size a
  inb_S128x2560_S128x128_0_1024 : ∀ a, (![0, 1024] : Fin 2 → Nat) a + S128x128.size a ≤ S128x2560.size a
  inb_S20x1024x128_S1x1024x128_9_0_0 : ∀ a, (![9, 0, 0] : Fin 3 → Nat) a + S1x1024x128.size a ≤ S20x1024x128.size a
  inb_S128x2560_S128x128_0_1152 : ∀ a, (![0, 1152] : Fin 2 → Nat) a + S128x128.size a ≤ S128x2560.size a
  inb_S20x1024x128_S1x1024x128_10_0_0 : ∀ a, (![10, 0, 0] : Fin 3 → Nat) a + S1x1024x128.size a ≤ S20x1024x128.size a
  inb_S128x2560_S128x128_0_1280 : ∀ a, (![0, 1280] : Fin 2 → Nat) a + S128x128.size a ≤ S128x2560.size a
  inb_S20x1024x128_S1x1024x128_11_0_0 : ∀ a, (![11, 0, 0] : Fin 3 → Nat) a + S1x1024x128.size a ≤ S20x1024x128.size a
  inb_S128x2560_S128x128_0_1408 : ∀ a, (![0, 1408] : Fin 2 → Nat) a + S128x128.size a ≤ S128x2560.size a
  inb_S20x1024x128_S1x1024x128_12_0_0 : ∀ a, (![12, 0, 0] : Fin 3 → Nat) a + S1x1024x128.size a ≤ S20x1024x128.size a
  inb_S128x2560_S128x128_0_1536 : ∀ a, (![0, 1536] : Fin 2 → Nat) a + S128x128.size a ≤ S128x2560.size a
  inb_S20x1024x128_S1x1024x128_13_0_0 : ∀ a, (![13, 0, 0] : Fin 3 → Nat) a + S1x1024x128.size a ≤ S20x1024x128.size a
  inb_S128x2560_S128x128_0_1664 : ∀ a, (![0, 1664] : Fin 2 → Nat) a + S128x128.size a ≤ S128x2560.size a
  inb_S20x1024x128_S1x1024x128_14_0_0 : ∀ a, (![14, 0, 0] : Fin 3 → Nat) a + S1x1024x128.size a ≤ S20x1024x128.size a
  inb_S128x2560_S128x128_0_1792 : ∀ a, (![0, 1792] : Fin 2 → Nat) a + S128x128.size a ≤ S128x2560.size a
  inb_S20x1024x128_S1x1024x128_15_0_0 : ∀ a, (![15, 0, 0] : Fin 3 → Nat) a + S1x1024x128.size a ≤ S20x1024x128.size a
  inb_S128x2560_S128x128_0_1920 : ∀ a, (![0, 1920] : Fin 2 → Nat) a + S128x128.size a ≤ S128x2560.size a
  inb_S20x1024x128_S1x1024x128_16_0_0 : ∀ a, (![16, 0, 0] : Fin 3 → Nat) a + S1x1024x128.size a ≤ S20x1024x128.size a
  inb_S128x2560_S128x128_0_2048 : ∀ a, (![0, 2048] : Fin 2 → Nat) a + S128x128.size a ≤ S128x2560.size a
  inb_S20x1024x128_S1x1024x128_17_0_0 : ∀ a, (![17, 0, 0] : Fin 3 → Nat) a + S1x1024x128.size a ≤ S20x1024x128.size a
  inb_S128x2560_S128x128_0_2176 : ∀ a, (![0, 2176] : Fin 2 → Nat) a + S128x128.size a ≤ S128x2560.size a
  inb_S20x1024x128_S1x1024x128_18_0_0 : ∀ a, (![18, 0, 0] : Fin 3 → Nat) a + S1x1024x128.size a ≤ S20x1024x128.size a
  inb_S128x2560_S128x128_0_2304 : ∀ a, (![0, 2304] : Fin 2 → Nat) a + S128x128.size a ≤ S128x2560.size a
  inb_S20x1024x128_S1x1024x128_19_0_0 : ∀ a, (![19, 0, 0] : Fin 3 → Nat) a + S1x1024x128.size a ≤ S20x1024x128.size a
  inb_S128x2560_S128x128_0_2432 : ∀ a, (![0, 2432] : Fin 2 → Nat) a + S128x128.size a ≤ S128x2560.size a
  inb_S128x2560_S128x2560_0_0 : ∀ a, (![0, 0] : Fin 2 → Nat) a + S128x2560.size a ≤ S128x2560.size a
  h_S128x2560 : 0 < S128x2560.numel
  shapeCasts_S128x2560_S128x20x128 : S128x2560.ShapeCasts S128x20x128
  h_S32x2560 : 0 < S32x2560.numel
  shapeCasts_S32x2560_S32x20x128 : S32x2560.ShapeCasts S32x20x128
  slices_S32x20x128_o0_0_0_S32x1x128 : S32x20x128.Slices ![0, 0, 0] S32x1x128
  shapeCasts_S32x1x128_S32x128 : S32x1x128.ShapeCasts S32x128
  shapeCasts_S32x128_S32x1x128 : S32x128.ShapeCasts S32x1x128
  slices_S128x20x128_o0_0_0_S128x1x128 : S128x20x128.Slices ![0, 0, 0] S128x1x128
  shapeCasts_S128x1x128_S128x128 : S128x1x128.ShapeCasts S128x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  slices_S32x20x128_o0_1_0_S32x1x128 : S32x20x128.Slices ![0, 1, 0] S32x1x128
  slices_S128x20x128_o0_1_0_S128x1x128 : S128x20x128.Slices ![0, 1, 0] S128x1x128
  slices_S32x20x128_o0_2_0_S32x1x128 : S32x20x128.Slices ![0, 2, 0] S32x1x128
  slices_S128x20x128_o0_2_0_S128x1x128 : S128x20x128.Slices ![0, 2, 0] S128x1x128
  slices_S32x20x128_o0_3_0_S32x1x128 : S32x20x128.Slices ![0, 3, 0] S32x1x128
  slices_S128x20x128_o0_3_0_S128x1x128 : S128x20x128.Slices ![0, 3, 0] S128x1x128
  slices_S32x20x128_o0_4_0_S32x1x128 : S32x20x128.Slices ![0, 4, 0] S32x1x128
  slices_S128x20x128_o0_4_0_S128x1x128 : S128x20x128.Slices ![0, 4, 0] S128x1x128
  slices_S32x20x128_o0_5_0_S32x1x128 : S32x20x128.Slices ![0, 5, 0] S32x1x128
  slices_S128x20x128_o0_5_0_S128x1x128 : S128x20x128.Slices ![0, 5, 0] S128x1x128
  slices_S32x20x128_o0_6_0_S32x1x128 : S32x20x128.Slices ![0, 6, 0] S32x1x128
  slices_S128x20x128_o0_6_0_S128x1x128 : S128x20x128.Slices ![0, 6, 0] S128x1x128
  slices_S32x20x128_o0_7_0_S32x1x128 : S32x20x128.Slices ![0, 7, 0] S32x1x128
  slices_S128x20x128_o0_7_0_S128x1x128 : S128x20x128.Slices ![0, 7, 0] S128x1x128
  slices_S32x20x128_o0_8_0_S32x1x128 : S32x20x128.Slices ![0, 8, 0] S32x1x128
  slices_S128x20x128_o0_8_0_S128x1x128 : S128x20x128.Slices ![0, 8, 0] S128x1x128
  slices_S32x20x128_o0_9_0_S32x1x128 : S32x20x128.Slices ![0, 9, 0] S32x1x128
  slices_S128x20x128_o0_9_0_S128x1x128 : S128x20x128.Slices ![0, 9, 0] S128x1x128
  slices_S32x20x128_o0_10_0_S32x1x128 : S32x20x128.Slices ![0, 10, 0] S32x1x128
  slices_S128x20x128_o0_10_0_S128x1x128 : S128x20x128.Slices ![0, 10, 0] S128x1x128
  slices_S32x20x128_o0_11_0_S32x1x128 : S32x20x128.Slices ![0, 11, 0] S32x1x128
  slices_S128x20x128_o0_11_0_S128x1x128 : S128x20x128.Slices ![0, 11, 0] S128x1x128
  slices_S32x20x128_o0_12_0_S32x1x128 : S32x20x128.Slices ![0, 12, 0] S32x1x128
  slices_S128x20x128_o0_12_0_S128x1x128 : S128x20x128.Slices ![0, 12, 0] S128x1x128
  slices_S32x20x128_o0_13_0_S32x1x128 : S32x20x128.Slices ![0, 13, 0] S32x1x128
  slices_S128x20x128_o0_13_0_S128x1x128 : S128x20x128.Slices ![0, 13, 0] S128x1x128
  slices_S32x20x128_o0_14_0_S32x1x128 : S32x20x128.Slices ![0, 14, 0] S32x1x128
  slices_S128x20x128_o0_14_0_S128x1x128 : S128x20x128.Slices ![0, 14, 0] S128x1x128
  slices_S32x20x128_o0_15_0_S32x1x128 : S32x20x128.Slices ![0, 15, 0] S32x1x128
  slices_S128x20x128_o0_15_0_S128x1x128 : S128x20x128.Slices ![0, 15, 0] S128x1x128
  slices_S32x20x128_o0_16_0_S32x1x128 : S32x20x128.Slices ![0, 16, 0] S32x1x128
  slices_S128x20x128_o0_16_0_S128x1x128 : S128x20x128.Slices ![0, 16, 0] S128x1x128
  slices_S32x20x128_o0_17_0_S32x1x128 : S32x20x128.Slices ![0, 17, 0] S32x1x128
  slices_S128x20x128_o0_17_0_S128x1x128 : S128x20x128.Slices ![0, 17, 0] S128x1x128
  slices_S32x20x128_o0_18_0_S32x1x128 : S32x20x128.Slices ![0, 18, 0] S32x1x128
  slices_S128x20x128_o0_18_0_S128x1x128 : S128x20x128.Slices ![0, 18, 0] S128x1x128
  slices_S32x20x128_o0_19_0_S32x1x128 : S32x20x128.Slices ![0, 19, 0] S32x1x128
  slices_S128x20x128_o0_19_0_S128x1x128 : S128x20x128.Slices ![0, 19, 0] S128x1x128
  reduces_S32x128x128_S32x128 : S32x128x128.Reduces [1] S32x128
  h_S32x128 : 0 < S32x128.numel
  concatenates_S128x1024_S128x512_S128x1536_d1 : Shape.Concatenates [S128x1024, S128x512] S128x1536 1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x2048_S2048x512_S128x512_1_0_0_1_n_n_wf : DotDims.WF S128x2048 S2048x512 S128x512 [1] [0] [0] [1] [] []
  dot_S128x1024_S1024x512_S128x512_1_0_0_1_n_n_wf : DotDims.WF S128x1024 S1024x512 S128x512 [1] [0] [0] [1] [] []
  dot_S128x1024_S1024x128_S128x128_1_0_0_1_n_n_wf : DotDims.WF S128x1024 S1024x128 S128x128 [1] [0] [0] [1] [] []
  dot_S128x1536_S1536x1_S128x1_1_0_0_1_n_n_wf : DotDims.WF S128x1536 S1536x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x2048.size a
  hwx0_0 : ∀ i : grid0.Coords, EltTy.bits .bf16 = 32 ∨ (Rect.block (s := S128x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x2048.size a
  hwx0_3 : ∀ i : grid0.Coords, EltTy.bits .bf16 = 32 ∨ (Rect.block (s := S128x2048) S128x512.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S128x2048.size a
  hwx1_0 : ∀ i : grid1.Coords, EltTy.bits .bf16 = 32 ∨ (Rect.block (s := S128x2048) S128x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x1024.size a
  hwx1_1 : ∀ i : grid1.Coords, EltTy.bits .f32 = 32 ∨ (Rect.block (s := S2048x1024) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x1024.size a
  hwx1_3 : ∀ i : grid1.Coords, EltTy.bits .bf16 = 32 ∨ (Rect.block (s := S128x1024) S128x512.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x1024.size a ≤ S128x1024.size a
  hwx2_0 : ∀ i : grid2.Coords, EltTy.bits .bf16 = 32 ∨ (Rect.block (s := S128x1024) S128x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x1024.size a
  hwx2_1 : ∀ i : grid2.Coords, EltTy.bits .f32 = 32 ∨ (Rect.block (s := S1024x1024) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x512.size a ≤ S128x1024.size a
  hwx2_3 : ∀ i : grid2.Coords, EltTy.bits .f32 = 32 ∨ (Rect.block (s := S128x1024) S128x512.size (cc2_transform_3 i) (hinb2_3 i)).WholeWords (EltTy.packing .f32)
  hrank3 : 0 < grid3.rank
  k3_t1_ok : k3_t1_loop.OK
  k3_mult1_dvd : ∀ k3_t1 : Fin k3_t1_loop.trips, 32 ∣ (k3_mult1 k3_t1).toNat
  k3_off1_inb : ∀ k3_t1 : Fin k3_t1_loop.trips, ∀ a, (k3_off1 k3_t1) a + S32x2560.size a ≤ S128x2560.size a
  k3_off2_inb : ∀ k3_t1 : Fin k3_t1_loop.trips, ∀ a, (k3_off2 k3_t1) a + S32x128.size a ≤ S128x128.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x1024.size a ≤ S128x1024.size a
  hwx3_0 : ∀ i : grid3.Coords, EltTy.bits .f32 = 32 ∨ (Rect.block (s := S128x1024) S128x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20x1024x128.size a ≤ S20x1024x512.size a
  hwx3_1 : ∀ i : grid3.Coords, EltTy.bits .f32 = 32 ∨ (Rect.block (s := S20x1024x512) S20x1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x512.size a
  hwx3_2 : ∀ i : grid3.Coords, EltTy.bits .f32 = 32 ∨ (Rect.block (s := S128x512) S128x128.size (cc3_transform_2 i) (hinb3_2 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x1536_S1536x1_S128x1_1_0_0_1_n_n : DotDims S128x1536 S1536x1 S128x1 where
  lhsContracting := [1]
  rhsContracting := [0]
  lhsNonContracting := [0]
  rhsNonContracting := [1]
  lhsBatch := []
  rhsBatch := []
  wf := dot_S128x1536_S1536x1_S128x1_1_0_0_1_n_n_wf

abbrev win0_0 : Pipeline.Window sig grid0 :=
  Pipeline.Window.ofSpec (Memref.whole main_v0) S128x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S128x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S128x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v6) S128x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v7) S20x1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S128x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S128x2048 : Shape := ⟨2, ![128, 2048]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S1x2048 : Shape := ⟨2, ![1, 2048]⟩
abbrev S_ : Shape := ⟨0, ![]⟩
abbrev S128x1024 : Shape := ⟨2, ![128, 1024]⟩
abbrev S1x1024 : Shape := ⟨2, ![1, 1024]⟩
abbrev S1024x10240 : Shape := ⟨2, ![1024, 10240]⟩
abbrev S128x10240 : Shape := ⟨2, ![128, 10240]⟩
abbrev S128x512x20 : Shape := ⟨3, ![128, 512, 20]⟩
abbrev S1x128x512x20 : Shape := ⟨4, ![1, 128, 512, 20]⟩
abbrev S128x1x512x20 : Shape := ⟨4, ![128, 1, 512, 20]⟩
abbrev S128x128x512x20 : Shape := ⟨4, ![128, 128, 512, 20]⟩
abbrev S128x128x512 : Shape := ⟨3, ![128, 128, 512]⟩
abbrev S128x512 : Shape := ⟨2, ![128, 512]⟩
abbrev S128x1536 : Shape := ⟨2, ![128, 1536]⟩
abbrev S128x1 : Shape := ⟨2, ![128, 1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512x20, .f32⟩
  | .hbm, ⟨8, _⟩ => ⟨S1536x1, .f32⟩
  | .hbm, ⟨9, _⟩ => ⟨S1, .f32⟩
  | .hbm, ⟨10, _⟩ => ⟨S128x2048, .f32⟩
  | .hbm, ⟨11, _⟩ => ⟨S1x2048, .f32⟩
  | .hbm, ⟨12, _⟩ => ⟨S128x2048, .f32⟩
  | .hbm, ⟨13, _⟩ => ⟨S128x2048, .f32⟩
  | .hbm, ⟨14, _⟩ => ⟨S_, .f32⟩
  | .hbm, ⟨15, _⟩ => ⟨S128x2048, .f32⟩
  | .hbm, ⟨16, _⟩ => ⟨S128x2048, .i1⟩
  | .hbm, ⟨17, _⟩ => ⟨S_, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .i1⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S1x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .i1⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S1024x10240, .f32⟩
  | .hbm, ⟨44, _⟩ => ⟨S128x10240, .f32⟩
  | .hbm, ⟨45, _⟩ => ⟨S128x512x20, .f32⟩
  | .hbm, ⟨46, _⟩ => ⟨S1x128x512x20, .f32⟩
  | .hbm, ⟨47, _⟩ => ⟨S128x1x512x20, .f32⟩
  | .hbm, ⟨48, _⟩ => ⟨S128x128x512x20, .f32⟩
  | .hbm, ⟨49, _⟩ => ⟨S128x128x512x20, .f32⟩
  | .hbm, ⟨50, _⟩ => ⟨S128x128x512x20, .f32⟩
  | .hbm, ⟨51, _⟩ => ⟨S128x128x512x20, .f32⟩
  | .hbm, ⟨52, _⟩ => ⟨S_, .f32⟩
  | .hbm, ⟨53, _⟩ => ⟨S128x128x512, .f32⟩
  | .hbm, ⟨54, _⟩ => ⟨S128x128x512, .f32⟩
  | .hbm, ⟨55, _⟩ => ⟨S128x128x512, .f32⟩
  | .hbm, ⟨56, _⟩ => ⟨S_, .f32⟩
  | .hbm, ⟨57, _⟩ => ⟨S128x512, .f32⟩
  | .hbm, ⟨58, _⟩ => ⟨S_, .f32⟩
  | .hbm, ⟨59, _⟩ => ⟨S128x512, .f32⟩
  | .hbm, ⟨60, _⟩ => ⟨S128x512, .f32⟩
  | .hbm, ⟨61, _⟩ => ⟨S128x1536, .f32⟩
  | .hbm, ⟨62, _⟩ => ⟨S128x1, .f32⟩
  | .hbm, ⟨63, _⟩ => ⟨S1x1, .f32⟩
  | .hbm, ⟨64, _⟩ => ⟨S128x1, .f32⟩
  | .hbm, ⟨65, _⟩ => ⟨S128x1, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  bcast_S_S128x2048 : S_.BroadcastsInDim S128x2048 (![] : Fin 0 → Fin S128x2048.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  shapeCasts_S1024x512x20_S1024x10240 : S1024x512x20.ShapeCasts S1024x10240
  shapeCasts_S128x10240_S128x512x20 : S128x10240.ShapeCasts S128x512x20
  bcast_S128x512x20_S1x128x512x20_1_2_3 : S128x512x20.BroadcastsInDim S1x128x512x20 (![1, 2, 3] : Fin 3 → Fin S1x128x512x20.rank)
  bcast_S128x512x20_S128x1x512x20_0_2_3 : S128x512x20.BroadcastsInDim S128x1x512x20 (![0, 2, 3] : Fin 3 → Fin S128x1x512x20.rank)
  bcast_S1x128x512x20_S128x128x512x20_0_1_2_3 : S1x128x512x20.BroadcastsInDim S128x128x512x20 (![0, 1, 2, 3] : Fin 4 → Fin S128x128x512x20.rank)
  bcast_S128x1x512x20_S128x128x512x20_0_1_2_3 : S128x1x512x20.BroadcastsInDim S128x128x512x20 (![0, 1, 2, 3] : Fin 4 → Fin S128x128x512x20.rank)
  reducesTo_S128x128x512x20_S128x128x512_d3 : S128x128x512x20.ReducesTo [3] S128x128x512
  h_S_ : 0 < S_.numel
  reducesTo_S128x128x512_S128x512_d0 : S128x128x512.ReducesTo [0] S128x512
  bcast_S_S128x512 : S_.BroadcastsInDim S128x512 (![] : Fin 0 → Fin S128x512.rank)
  concatenates_S128x1024_S128x512_S128x1536_d1 : Shape.Concatenates [S128x1024, S128x512] S128x1536 1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x2048_S2048x2048_S128x2048_1_0_0_1_n_n_wf : DotDims.WF S128x2048 S2048x2048 S128x2048 [1] [0] [0] [1] [] []
  dot_S128x2048_S2048x1024_S128x1024_1_0_0_1_n_n_wf : DotDims.WF S128x2048 S2048x1024 S128x1024 [1] [0] [0] [1] [] []
  dot_S128x1024_S1024x1024_S128x1024_1_0_0_1_n_n_wf : DotDims.WF S128x1024 S1024x1024 S128x1024 [1] [0] [0] [1] [] []
  dot_S128x1024_S1024x10240_S128x10240_1_0_0_1_n_n_wf : DotDims.WF S128x1024 S1024x10240 S128x10240 [1] [0] [0] [1] [] []
  dot_S128x1536_S1536x1_S128x1_1_0_0_1_n_n_wf : DotDims.WF S128x1536 S1536x1 S128x1 [1] [0] [0] [1] [] []

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x10240_S128x10240_1_0_0_1_n_n : DotDims S128x1024 S1024x10240 S128x10240 where
  lhsContracting := [1]
  rhsContracting := [0]
  lhsNonContracting := [0]
  rhsNonContracting := [1]
  lhsBatch := []
  rhsBatch := []
  wf := dot_S128x1024_S1024x10240_S128x10240_1_0_0_1_n_n_wf
def dot_S128x1536_S1536x1_S128x1_1_0_0_1_n_n : DotDims S128x1536 S1536x1 S128x1 where
  lhsContracting := [1]
  rhsContracting := [0]
  lhsNonContracting := [0]
  rhsNonContracting := [1]
  lhsBatch := []
  rhsBatch := []
  wf := dot_S128x1536_S1536x1_S128x1_1_0_0_1_n_n_wf

class Facts : Prop extends Facts₀ where

variable [Facts]
-- ==== Proof.Spec.lean ====
/-
  The function both programs compute, entry by entry, on the extended reals.

  Three dense layers with a leaky rectifier, then a minibatch-discrimination feature: for every pair of rows
  `(b, a)` and every feature `o` the L1 distance over the last axis of `M[·, o, ·]`, where
  `M[b, o, k] = ∑ h, H[b, h] · T[h, o, k]`; feature `(b, o)` is `∑ a, exp (-dist(b, a, o)) - 1`.
-/
import Idealize.ShloMosaic.PureOps.Ideal
import Idealize.ShloMosaic.Lib.ValueIdx

noncomputable section

namespace Cert.Mbd

open Idealize.ShloMosaic Idealize.ShloMosaic.ValueIdx

/-- The leaky rectifier: `z` where `z ≥ 0`, the slope times `z` elsewhere (the slope is the float nearest 0.01,
    the same word in both programs, never evaluated). -/
def lrelu (z : EReal) : EReal :=
  Scalar.select (FloatOps.cmpf (F := Ideal) (φ := .f32) .oge z (Ideal.ofBits .f32 0x00000000#32)) z
    (Ideal.ofBits .f32 0x3C23D70A#32 * z)

/-- One dense layer at row `a`, column `q`: the rectifier of `∑ c, x[a, c] · W[c, q] + bias[q]`. -/
def denseAt {n k p : Nat} (x : (⟨2, ![n, k]⟩ : Shape).Idx → EReal) (W : (⟨2, ![k, p]⟩ : Shape).Idx → EReal)
    (bias : Fin p → EReal) (a : Fin n) (q : Fin p) : EReal :=
  lrelu ((∑ c : Fin k, x (ix2 a c) * W (ix2 c q)) + bias q)

/-- The layer as an array. -/
def dense {n k p : Nat} (x : (⟨2, ![n, k]⟩ : Shape).Idx → EReal) (W : (⟨2, ![k, p]⟩ : Shape).Idx → EReal)
    (bias : Fin p → EReal) : (⟨2, ![n, p]⟩ : Shape).Idx → EReal :=
  fun j => denseAt x W bias (j 0) (j 1)

theorem dense_apply {n k p : Nat} (x : (⟨2, ![n, k]⟩ : Shape).Idx → EReal) (W : (⟨2, ![k, p]⟩ : Shape).Idx → EReal)
    (bias : Fin p → EReal) (a : Fin n) (q : Fin p) : dense x W bias (ix2 a q) = denseAt x W bias a q := rfl

/-- The projected tensor `M[b, o, k] = ∑ h, H[b, h] · T[h, o, k]`. -/
def proj (H : (⟨2, ![128, 1024]⟩ : Shape).Idx → EReal) (T : (⟨3, ![1024, 512, 20]⟩ : Shape).Idx → EReal)
    (b : Fin 128) (o : Fin 512) (k : Fin 20) : EReal :=
  ∑ h : Fin 1024, H (ix2 b h) * T (ix3 h o k)

/-- The L1 distance between rows `b` and `a` of `M[·, o, ·]`. -/
def dist (H : (⟨2, ![128, 1024]⟩ : Shape).Idx → EReal) (T : (⟨3, ![1024, 512, 20]⟩ : Shape).Idx → EReal)
    (b a : Fin 128) (o : Fin 512) : EReal :=
  ∑ k : Fin 20, max (proj H T b o k - proj H T a o k) (-(proj H T b o k - proj H T a o k))

/-- The discrimination feature at `(b, o)`: `∑ a, exp (-dist(b, a, o)) - 1`. -/
def featAt (H : (⟨2, ![128, 1024]⟩ : Shape).Idx → EReal) (T : (⟨3, ![1024, 512, 20]⟩ : Shape).Idx → EReal)
    (b : Fin 128) (o : Fin 512) : EReal :=
  (∑ a : Fin 128, Ideal.exp (-(dist H T b a o))) - Ideal.ofBits .f32 0x3F800000#32

/-- The feature as an array. -/
def feat (H : (⟨2, ![128, 1024]⟩ : Shape).Idx → EReal) (T : (⟨3, ![1024, 512, 20]⟩ : Shape).Idx → EReal) :
    (⟨2, ![128, 512]⟩ : Shape).Idx → EReal :=
  fun j => featAt H T (j 0) (j 1)

theorem feat_apply (H : (⟨2, ![128, 1024]⟩ : Shape).Idx → EReal) (T : (⟨3, ![1024, 512, 20]⟩ : Shape).Idx → EReal)
    (b : Fin 128) (o : Fin 512) : feat H T (ix2 b o) = featAt H T b o := rfl

/-- The three layers. -/
def hidden (x : (⟨2, ![128, 2048]⟩ : Shape).Idx → EReal) (W1 : (⟨2, ![2048, 2048]⟩ : Shape).Idx → EReal)
    (b1 : Fin 2048 → EReal) (W2 : (⟨2, ![2048, 1024]⟩ : Shape).Idx → EReal) (b2 : Fin 1024 → EReal)
    (W3 : (⟨2, ![1024, 1024]⟩ : Shape).Idx → EReal) (b3 : Fin 1024 → EReal) :
    (⟨2, ![128, 1024]⟩ : Shape).Idx → EReal :=
  dense (dense (dense x W1 b1) W2 b2) W3 b3

end Cert.Mbd

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.Layers.lean ====
/-
  The three dense layers of the kernel program, region by region.

  Each of the first three regions of the kernel program computes one dense layer block by block: at grid point `t` it
  reads the whole input matrix, column block `t` of the weight matrix and column block `t` of the bias row, forms
  `lrelu (x · W + b)` on that column block and writes it to column block `t` of the output. The blocks tile the output,
  so after the region the output array holds the whole layer `dense x W b` of the arrays the region found.
-/
import proofs.«107311_j24532853195160_2_alg».proof.Proof.Gen.KernelIdeal.Frame
import proofs.«107311_j24532853195160_2_alg».proof.Proof.Spec
import proofs.«107311_j24532853195160_2_alg».proof.Proof.LibPlainProduct
import proofs.«107311_j24532853195160_2_alg».proof.Proof.LibRowVector
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerValue

open Idealize.ShloMosaic Idealize.ShloMosaic.ValueIdx Idealize.ShloMosaic.TcCoe
open Idealize.ShloMosaic.Pipeline (Dat)
open Cert.KernelIdeal Cert.KernelIdeal.Gen

/-! ## One block of a layer, entry by entry -/

/-- The body's arithmetic over any sizes: the product into a zero accumulator plus the bias row laid along every row,
    through the leaky rectifier, at entry `(a, q)` is the rectifier of `∑ c, x[a, c] · w[c, q] + b[0, q]`. The
    casts to a narrower float are the identity on the extended reals, and a cast to the same shape changes nothing. -/
theorem layer_apply {n k p : Nat} (d : DotDims ⟨2, ![n, k]⟩ ⟨2, ![k, p]⟩ ⟨2, ![n, p]⟩) (hd : d = DotDims.plain n k p)
    (x : FVec Ideal ⟨2, ![n, k]⟩ .bf16) (w : FVec Ideal ⟨2, ![k, p]⟩ .f32) (b : FVec Ideal ⟨2, ![1, p]⟩ .f32)
    (hx : (⟨2, ![n, k]⟩ : Shape).ShapeCasts ⟨2, ![n, k]⟩) (hb1 : (⟨2, ![1, p]⟩ : Shape).ShapeCasts ⟨2, ![1, p]⟩)
    (hb : (⟨2, ![1, p]⟩ : Shape).Broadcasts ⟨2, ![n, p]⟩) (hlt : FTy.bits .bf16 < FTy.bits .f32)
    (a : Fin n) (q : Fin p) :
    let z : FVec Ideal ⟨2, ![n, p]⟩ .f32 :=
      addf (matmul d none (shapeCast ⟨2, ![n, k]⟩ x hx) (truncf .bf16 w hlt) (constant ⟨2, ![n, p]⟩ .f32 0x00000000#32))
        (broadcastTo ⟨2, ![n, p]⟩ (shapeCast ⟨2, ![1, p]⟩ b hb1) hb)
    select (cmpf .oge z (broadcast ⟨2, ![n, p]⟩ (Scalar.ofBits .f32 0x00000000#32))) z
        (mulf (broadcast ⟨2, ![n, p]⟩ (Scalar.ofBits .f32 0x3C23D70A#32)) z) (ix2 a q)
      = Cert.Mbd.lrelu ((∑ c : Fin k, x (ix2 a c) * w (ix2 c q)) + b (ix2 0 q)) := by
  intro z
  have hz : z (ix2 a q) = (∑ c : Fin k, x (ix2 a c) * w (ix2 c q)) + b (ix2 0 q) := by
    show matmul d none (shapeCast ⟨2, ![n, k]⟩ x hx) (truncf .bf16 w hlt) (constant ⟨2, ![n, p]⟩ .f32 0x00000000#32) (ix2 a q)
      + broadcastTo ⟨2, ![n, p]⟩ (shapeCast ⟨2, ![1, p]⟩ b hb1) hb (ix2 a q) = _
    rw [Cert.PlainProduct.matmul_plain_apply d hd none _ _ a q, shapeCast_self, shapeCast_self]
    rw [broadcastTo_apply b hb (ix2 a q) (ix2 (0 : Fin 1) q) (by
      intro r
      match r with
      | ⟨0, _⟩ => rfl
      | ⟨1, _⟩ =>
        show q.val = if p = 1 then 0 else q.val
        split
        · have := q.isLt; omega
        · rfl)]
    rfl
  show Cert.Mbd.lrelu (z (ix2 a q)) = _
  rw [hz]

theorem zero_offsets : (![0, 0] : Fin 2 → Nat) = fun _ => 0 := funext fun a => by fin_cases a <;> rfl

/-! ## Region 0: the first layer -/

section Region0

variable (V : (c : Dev nD) → (b : Ref sig .tc) → Buf (Elt Ideal) ((c : Thread nD τ).loc b))

/-- The input matrix, the weight matrix and the bias row as region 0 finds them. -/
abbrev X0 (c : Dev nD) : S128x2048.Idx → EReal := V c (Pipeline.arrRef spec0 0)
abbrev W0 (c : Dev nD) : S2048x2048.Idx → EReal := V c (Pipeline.arrRef spec0 1)
abbrev B0 (c : Dev nD) : S1x2048.Idx → EReal := V c (Pipeline.arrRef spec0 2)

/-- The whole first layer of those arrays. -/
abbrev L0 (c : Dev nD) : S128x2048.Idx → EReal :=
  Cert.Mbd.dense (X0 V c) (W0 V c) (fun q' => B0 V c (ix2 0 q'))

/-- Region 0's payload at entry `(a, q)` of its block. -/
theorem pay0_apply (x : Vec Ideal S128x2048 .bf16) (w : Vec Ideal S2048x512 .f32) (b : Vec Ideal S1x512 .f32)
    (a : Fin 128) (q : Fin 512) :
    Gen.k0_pay1 (F := Ideal) x w b (ix2 a q)
      = Cert.Mbd.lrelu ((∑ c : Fin 2048, x (ix2 a c) * w (ix2 c q)) + b (ix2 0 q)) :=
  layer_apply dot_S128x2048_S2048x512_S128x512_1_0_0_1_n_n rfl x w b _ _ _ _ a q

/-- The block indices over the grid: the input matrix is one block; at point `t` the weight, bias and output
    windows are all on column block `t`. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- One block of the layer: a payload over blocks that are the input matrix, a column block of the weights and the
    same column block of the bias row is that column block of the layer. -/
theorem block0_apply (X : S128x2048.Idx → EReal) (W : S2048x2048.Idx → EReal) (B : S1x2048.Idx → EReal)
    (x : Vec Ideal S128x2048 .bf16) (w : Vec Ideal S2048x512 .f32) (b : Vec Ideal S1x512 .f32)
    (a : Fin 128) (q : Fin 512) (Q : Fin 2048)
    (hx : ∀ c : Fin 2048, x (ix2 a c) = X (ix2 a c))
    (hw : ∀ c : Fin 2048, w (ix2 c q) = W (ix2 c Q))
    (hb : b (ix2 0 q) = B (ix2 0 Q)) :
    Gen.k0_pay1 (F := Ideal) x w b (ix2 a q) = Cert.Mbd.dense X W (fun q' => B (ix2 0 q')) (ix2 a Q) := by
  refine (pay0_apply x w b a q).trans ?_
  rw [Cert.Mbd.dense_apply]
  unfold Cert.Mbd.denseAt
  rw [hb]
  refine congrArg (fun s => Cert.Mbd.lrelu (s + B (ix2 0 Q))) ?_
  exact Finset.sum_congr rfl fun c _ => by rw [hx c, hw c]

/-- What point `t` writes back is block `t` of the layer. -/
theorem flushed0_eq (c : Dev nD) (t : Fin cfg0.N) :
    (Gen.dat0 (F := Ideal) V c).flushed 3 t = ((cfg0.win 3).blk t).view.read (Elt Ideal) (L0 V c) := by
  show (cfg0.win 3).cut (grid0.coords t) ((Gen.dat0 (F := Ideal) V c).after 3 t) = _
  rw [Gen.after0_3]
  unfold Gen.out0_3
  rw [View.canon_unit_zero zero_offsets]
  simp only [View.ld_unit_zero (S := S128x2048) zero_offsets, View.ld_unit_zero (S := S2048x512) zero_offsets,
    View.ld_unit_zero (S := S1x512) zero_offsets]
  obtain ⟨e00, e01, e10, e11, e20, e21, e30, e31⟩ := idx_facts0 t
  have ht : t.val < 4 := t.isLt
  funext j
  obtain ⟨a, q, rfl⟩ : ∃ (a : Fin 128) (q : Fin 512), j = ix2 a q := ⟨j 0, j 1, eq_ix2 (n0 := 128) (n1 := 512) j⟩
  show Gen.k0_pay1 (F := Ideal) (Gen.iblk0 V c 0 t) (Gen.iblk0 V c 1 t) (Gen.iblk0 V c 2 t) (ix2 a q)
    = L0 V c (((cfg0.win 3).blk t).view.emb (ix2 a q))
  have hq : q.val < 512 := q.isLt
  have hemb : ((cfg0.win 3).blk t).view.emb (ix2 a q) = (ix2 a (⟨t.val * 512 + q.val, by omega⟩ : Fin 2048) : S128x2048.Idx) := by
    funext r; apply Fin.ext
    match r with
    | ⟨0, _⟩ => show win0_3.index t (0 : Fin 2) * 128 + 1 * a.val = a.val; omega
    | ⟨1, _⟩ => show win0_3.index t (1 : Fin 2) * 512 + 1 * q.val = t.val * 512 + q.val; omega
  rw [hemb]
  refine block0_apply (X0 V c) (W0 V c) (B0 V c) (Gen.iblk0 V c 0 t) (Gen.iblk0 V c 1 t) (Gen.iblk0 V c 2 t) a q
    ⟨t.val * 512 + q.val, by omega⟩ (fun k => ?_) (fun k => ?_) ?_
  · show V c (Pipeline.arrRef spec0 0) (((cfg0.win 0).blk t).view.emb (ix2 a k)) = V c (Pipeline.arrRef spec0 0) (ix2 a k)
    refine congrArg _ (funext fun r => Fin.ext ?_)
    match r with
    | ⟨0, _⟩ => show win0_0.index t (0 : Fin 2) * 128 + 1 * a.val = a.val; omega
    | ⟨1, _⟩ => show win0_0.index t (1 : Fin 2) * 2048 + 1 * k.val = k.val; omega
  · show V c (Pipeline.arrRef spec0 1) (((cfg0.win 1).blk t).view.emb (ix2 k q)) = V c (Pipeline.arrRef spec0 1) (ix2 k ⟨t.val * 512 + q.val, by omega⟩)
    refine congrArg _ (funext fun r => Fin.ext ?_)
    match r with
    | ⟨0, _⟩ => show win0_1.index t (0 : Fin 2) * 2048 + 1 * k.val = k.val; omega
    | ⟨1, _⟩ => show win0_1.index t (1 : Fin 2) * 512 + 1 * q.val = t.val * 512 + q.val; omega
  · show V c (Pipeline.arrRef spec0 2) (((cfg0.win 2).blk t).view.emb (ix2 0 q)) = V c (Pipeline.arrRef spec0 2) (ix2 0 ⟨t.val * 512 + q.val, by omega⟩)
    refine congrArg _ (funext fun r => Fin.ext ?_)
    match r with
    | ⟨0, _⟩ => show win0_2.index t (0 : Fin 2) * 1 + 1 * 0 = 0; omega
    | ⟨1, _⟩ => show win0_2.index t (1 : Fin 2) * 512 + 1 * q.val = t.val * 512 + q.val; omega

/-- An entry of the output array is in point `t`'s block iff each coordinate is in the block's range on its axis. -/
theorem mem_blk0 (t : Fin cfg0.N) (i : S128x2048.Idx) :
    i ∈ ((cfg0.win 3).blk t).view.set ↔ ∀ a : Fin 2, win0_3.index t a * S128x512.size a ≤ (i a).val
      ∧ (i a).val < win0_3.index t a * S128x512.size a + S128x512.size a := by
  show i ∈ ((View.whole main_v2).slice (win0_3.rect t)).set ↔ _
  rw [View.set_slice_whole, Rect.mem_set_unit]
  exact Iff.rfl

/-- Column `q` of the output lies in the block of point `q / 512`: the blocks tile the array. -/
theorem cover0 (i : S128x2048.Idx) :
    ∃ t : Fin cfg0.N, (cfg0.win 3).flush t = true ∧ i ∈ ((cfg0.win 3).blk t).view.set := by
  have h0 : (i 0).val < 128 := (i 0).isLt
  have h1 : (i 1).val < 2048 := (i 1).isLt
  have hN : cfg0.N = 4 := N_0
  let t : Fin cfg0.N := ⟨(i 1).val / 512, by rw [hN]; omega⟩
  have htv : t.val = (i 1).val / 512 := rfl
  obtain ⟨-, -, -, -, -, -, e30, e31⟩ := idx_facts0 t
  refine ⟨t, flush0_3 t, ?_⟩
  rw [mem_blk0]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 512 ≤ (i 1).val ∧ (i 1).val < win0_3.index t (1 : Fin 2) * 512 + 512; omega

/-- After region 0 its output array holds the whole first layer of the arrays the region found. -/
theorem final0_array (c : Dev nD) : (Gen.dat0 (F := Ideal) V c).arrAt 3 cfg0.N = L0 V c :=
  (Gen.dat0 (F := Ideal) V c).arrAt_eq_of_cover 3 (L0 V c) (fun t _ => flushed0_eq V c t) cover0

/-- Entry by entry. -/
theorem final0 (c : Dev nD) (a : Fin 128) (q : Fin 2048) :
    (Gen.dat0 (F := Ideal) V c).arrAt 3 cfg0.N (ix2 a q)
      = Cert.Mbd.denseAt (V c (Pipeline.arrRef spec0 0)) (V c (Pipeline.arrRef spec0 1))
          (fun q' => V c (Pipeline.arrRef spec0 2) (ix2 0 q')) a q := by
  rw [final0_array]; rfl

end Region0

/-! ## Region 1: the second layer -/

section Region1

variable (V : (c : Dev nD) → (b : Ref sig .tc) → Buf (Elt Ideal) ((c : Thread nD τ).loc b))

/-- The input matrix, the weight matrix and the bias row as region 1 finds them. -/
abbrev X1 (c : Dev nD) : S128x2048.Idx → EReal := V c (Pipeline.arrRef spec1 0)
abbrev W1 (c : Dev nD) : S2048x1024.Idx → EReal := V c (Pipeline.arrRef spec1 1)
abbrev B1 (c : Dev nD) : S1x1024.Idx → EReal := V c (Pipeline.arrRef spec1 2)

/-- The whole second layer of those arrays. -/
abbrev L1 (c : Dev nD) : S128x1024.Idx → EReal :=
  Cert.Mbd.dense (X1 V c) (W1 V c) (fun q' => B1 V c (ix2 0 q'))

/-- Region 1's payload at entry `(a, q)` of its block. -/
theorem pay1_apply (x : Vec Ideal S128x2048 .bf16) (w : Vec Ideal S2048x512 .f32) (b : Vec Ideal S1x512 .f32)
    (a : Fin 128) (q : Fin 512) :
    Gen.k1_pay1 (F := Ideal) x w b (ix2 a q)
      = Cert.Mbd.lrelu ((∑ c : Fin 2048, x (ix2 a c) * w (ix2 c q)) + b (ix2 0 q)) :=
  layer_apply dot_S128x2048_S2048x512_S128x512_1_0_0_1_n_n rfl x w b _ _ _ _ a q

/-- The block indices over the grid: the input matrix is one block; at point `t` the weight, bias and output
    windows are all on column block `t`. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- One block of the layer: a payload over blocks that are the input matrix, a column block of the weights and the
    same column block of the bias row is that column block of the layer. -/
theorem block1_apply (X : S128x2048.Idx → EReal) (W : S2048x1024.Idx → EReal) (B : S1x1024.Idx → EReal)
    (x : Vec Ideal S128x2048 .bf16) (w : Vec Ideal S2048x512 .f32) (b : Vec Ideal S1x512 .f32)
    (a : Fin 128) (q : Fin 512) (Q : Fin 1024)
    (hx : ∀ c : Fin 2048, x (ix2 a c) = X (ix2 a c))
    (hw : ∀ c : Fin 2048, w (ix2 c q) = W (ix2 c Q))
    (hb : b (ix2 0 q) = B (ix2 0 Q)) :
    Gen.k1_pay1 (F := Ideal) x w b (ix2 a q) = Cert.Mbd.dense X W (fun q' => B (ix2 0 q')) (ix2 a Q) := by
  refine (pay1_apply x w b a q).trans ?_
  rw [Cert.Mbd.dense_apply]
  unfold Cert.Mbd.denseAt
  rw [hb]
  refine congrArg (fun s => Cert.Mbd.lrelu (s + B (ix2 0 Q))) ?_
  exact Finset.sum_congr rfl fun c _ => by rw [hx c, hw c]

/-- What point `t` writes back is block `t` of the layer. -/
theorem flushed1_eq (c : Dev nD) (t : Fin cfg1.N) :
    (Gen.dat1 (F := Ideal) V c).flushed 3 t = ((cfg1.win 3).blk t).view.read (Elt Ideal) (L1 V c) := by
  show (cfg1.win 3).cut (grid1.coords t) ((Gen.dat1 (F := Ideal) V c).after 3 t) = _
  rw [Gen.after1_3]
  unfold Gen.out1_3
  rw [View.canon_unit_zero zero_offsets]
  simp only [View.ld_unit_zero (S := S128x2048) zero_offsets, View.ld_unit_zero (S := S2048x512) zero_offsets,
    View.ld_unit_zero (S := S1x512) zero_offsets]
  obtain ⟨e00, e01, e10, e11, e20, e21, e30, e31⟩ := idx_facts1 t
  have ht : t.val < 2 := t.isLt
  funext j
  obtain ⟨a, q, rfl⟩ : ∃ (a : Fin 128) (q : Fin 512), j = ix2 a q := ⟨j 0, j 1, eq_ix2 (n0 := 128) (n1 := 512) j⟩
  show Gen.k1_pay1 (F := Ideal) (Gen.iblk1 V c 0 t) (Gen.iblk1 V c 1 t) (Gen.iblk1 V c 2 t) (ix2 a q)
    = L1 V c (((cfg1.win 3).blk t).view.emb (ix2 a q))
  have hq : q.val < 512 := q.isLt
  have hemb : ((cfg1.win 3).blk t).view.emb (ix2 a q) = (ix2 a (⟨t.val * 512 + q.val, by omega⟩ : Fin 1024) : S128x1024.Idx) := by
    funext r; apply Fin.ext
    match r with
    | ⟨0, _⟩ => show win1_3.index t (0 : Fin 2) * 128 + 1 * a.val = a.val; omega
    | ⟨1, _⟩ => show win1_3.index t (1 : Fin 2) * 512 + 1 * q.val = t.val * 512 + q.val; omega
  rw [hemb]
  refine block1_apply (X1 V c) (W1 V c) (B1 V c) (Gen.iblk1 V c 0 t) (Gen.iblk1 V c 1 t) (Gen.iblk1 V c 2 t) a q
    ⟨t.val * 512 + q.val, by omega⟩ (fun k => ?_) (fun k => ?_) ?_
  · show V c (Pipeline.arrRef spec1 0) (((cfg1.win 0).blk t).view.emb (ix2 a k)) = V c (Pipeline.arrRef spec1 0) (ix2 a k)
    refine congrArg _ (funext fun r => Fin.ext ?_)
    match r with
    | ⟨0, _⟩ => show win1_0.index t (0 : Fin 2) * 128 + 1 * a.val = a.val; omega
    | ⟨1, _⟩ => show win1_0.index t (1 : Fin 2) * 2048 + 1 * k.val = k.val; omega
  · show V c (Pipeline.arrRef spec1 1) (((cfg1.win 1).blk t).view.emb (ix2 k q)) = V c (Pipeline.arrRef spec1 1) (ix2 k ⟨t.val * 512 + q.val, by omega⟩)
    refine congrArg _ (funext fun r => Fin.ext ?_)
    match r with
    | ⟨0, _⟩ => show win1_1.index t (0 : Fin 2) * 2048 + 1 * k.val = k.val; omega
    | ⟨1, _⟩ => show win1_1.index t (1 : Fin 2) * 512 + 1 * q.val = t.val * 512 + q.val; omega
  · show V c (Pipeline.arrRef spec1 2) (((cfg1.win 2).blk t).view.emb (ix2 0 q)) = V c (Pipeline.arrRef spec1 2) (ix2 0 ⟨t.val * 512 + q.val, by omega⟩)
    refine congrArg _ (funext fun r => Fin.ext ?_)
    match r with
    | ⟨0, _⟩ => show win1_2.index t (0 : Fin 2) * 1 + 1 * 0 = 0; omega
    | ⟨1, _⟩ => show win1_2.index t (1 : Fin 2) * 512 + 1 * q.val = t.val * 512 + q.val; omega

/-- An entry of the output array is in point `t`'s block iff each coordinate is in the block's range on its axis. -/
theorem mem_blk1 (t : Fin cfg1.N) (i : S128x1024.Idx) :
    i ∈ ((cfg1.win 3).blk t).view.set ↔ ∀ a : Fin 2, win1_3.index t a * S128x512.size a ≤ (i a).val
      ∧ (i a).val < win1_3.index t a * S128x512.size a + S128x512.size a := by
  show i ∈ ((View.whole main_v4).slice (win1_3.rect t)).set ↔ _
  rw [View.set_slice_whole, Rect.mem_set_unit]
  exact Iff.rfl

/-- Column `q` of the output lies in the block of point `q / 512`: the blocks tile the array. -/
theorem cover1 (i : S128x1024.Idx) :
    ∃ t : Fin cfg1.N, (cfg1.win 3).flush t = true ∧ i ∈ ((cfg1.win 3).blk t).view.set := by
  have h0 : (i 0).val < 128 := (i 0).isLt
  have h1 : (i 1).val < 1024 := (i 1).isLt
  have hN : cfg1.N = 2 := N_1
  let t : Fin cfg1.N := ⟨(i 1).val / 512, by rw [hN]; omega⟩
  have htv : t.val = (i 1).val / 512 := rfl
  obtain ⟨-, -, -, -, -, -, e30, e31⟩ := idx_facts1 t
  refine ⟨t, flush1_3 t, ?_⟩
  rw [mem_blk1]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 512 ≤ (i 1).val ∧ (i 1).val < win1_3.index t (1 : Fin 2) * 512 + 512; omega

/-- After region 1 its output array holds the whole second layer of the arrays the region found. -/
theorem final1_array (c : Dev nD) : (Gen.dat1 (F := Ideal) V c).arrAt 3 cfg1.N = L1 V c :=
  (Gen.dat1 (F := Ideal) V c).arrAt_eq_of_cover 3 (L1 V c) (fun t _ => flushed1_eq V c t) cover1

/-- Entry by entry. -/
theorem final1 (c : Dev nD) (a : Fin 128) (q : Fin 1024) :
    (Gen.dat1 (F := Ideal) V c).arrAt 3 cfg1.N (ix2 a q)
      = Cert.Mbd.denseAt (V c (Pipeline.arrRef spec1 0)) (V c (Pipeline.arrRef spec1 1))
          (fun q' => V c (Pipeline.arrRef spec1 2) (ix2 0 q')) a q := by
  rw [final1_array]; rfl

end Region1

/-! ## Region 2: the third layer -/

section Region2

variable (V : (c : Dev nD) → (b : Ref sig .tc) → Buf (Elt Ideal) ((c : Thread nD τ).loc b))

/-- The input matrix, the weight matrix and the bias row as region 2 finds them. -/
abbrev X2 (c : Dev nD) : S128x1024.Idx → EReal := V c (Pipeline.arrRef spec2 0)
abbrev W2 (c : Dev nD) : S1024x1024.Idx → EReal := V c (Pipeline.arrRef spec2 1)
abbrev B2 (c : Dev nD) : S1x1024.Idx → EReal := V c (Pipeline.arrRef spec2 2)

/-- The whole third layer of those arrays. -/
abbrev L2 (c : Dev nD) : S128x1024.Idx → EReal :=
  Cert.Mbd.dense (X2 V c) (W2 V c) (fun q' => B2 V c (ix2 0 q'))

/-- Region 2's payload at entry `(a, q)` of its block. -/
theorem pay2_apply (x : Vec Ideal S128x1024 .bf16) (w : Vec Ideal S1024x512 .f32) (b : Vec Ideal S1x512 .f32)
    (a : Fin 128) (q : Fin 512) :
    Gen.k2_pay1 (F := Ideal) x w b (ix2 a q)
      = Cert.Mbd.lrelu ((∑ c : Fin 1024, x (ix2 a c) * w (ix2 c q)) + b (ix2 0 q)) :=
  layer_apply dot_S128x1024_S1024x512_S128x512_1_0_0_1_n_n rfl x w b _ _ _ _ a q

/-- The block indices over the grid: the input matrix is one block; at point `t` the weight, bias and output
    windows are all on column block `t`. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- One block of the layer: a payload over blocks that are the input matrix, a column block of the weights and the
    same column block of the bias row is that column block of the layer. -/
theorem block2_apply (X : S128x1024.Idx → EReal) (W : S1024x1024.Idx → EReal) (B : S1x1024.Idx → EReal)
    (x : Vec Ideal S128x1024 .bf16) (w : Vec Ideal S1024x512 .f32) (b : Vec Ideal S1x512 .f32)
    (a : Fin 128) (q : Fin 512) (Q : Fin 1024)
    (hx : ∀ c : Fin 1024, x (ix2 a c) = X (ix2 a c))
    (hw : ∀ c : Fin 1024, w (ix2 c q) = W (ix2 c Q))
    (hb : b (ix2 0 q) = B (ix2 0 Q)) :
    Gen.k2_pay1 (F := Ideal) x w b (ix2 a q) = Cert.Mbd.dense X W (fun q' => B (ix2 0 q')) (ix2 a Q) := by
  refine (pay2_apply x w b a q).trans ?_
  rw [Cert.Mbd.dense_apply]
  unfold Cert.Mbd.denseAt
  rw [hb]
  refine congrArg (fun s => Cert.Mbd.lrelu (s + B (ix2 0 Q))) ?_
  exact Finset.sum_congr rfl fun c _ => by rw [hx c, hw c]

/-- What point `t` writes back is block `t` of the layer. -/
theorem flushed2_eq (c : Dev nD) (t : Fin cfg2.N) :
    (Gen.dat2 (F := Ideal) V c).flushed 3 t = ((cfg2.win 3).blk t).view.read (Elt Ideal) (L2 V c) := by
  show (cfg2.win 3).cut (grid2.coords t) ((Gen.dat2 (F := Ideal) V c).after 3 t) = _
  rw [Gen.after2_3]
  unfold Gen.out2_3
  rw [View.canon_unit_zero zero_offsets]
  simp only [View.ld_unit_zero (S := S128x1024) zero_offsets, View.ld_unit_zero (S := S1024x512) zero_offsets,
    View.ld_unit_zero (S := S1x512) zero_offsets]
  obtain ⟨e00, e01, e10, e11, e20, e21, e30, e31⟩ := idx_facts2 t
  have ht : t.val < 2 := t.isLt
  funext j
  obtain ⟨a, q, rfl⟩ : ∃ (a : Fin 128) (q : Fin 512), j = ix2 a q := ⟨j 0, j 1, eq_ix2 (n0 := 128) (n1 := 512) j⟩
  show Gen.k2_pay1 (F := Ideal) (Gen.iblk2 V c 0 t) (Gen.iblk2 V c 1 t) (Gen.iblk2 V c 2 t) (ix2 a q)
    = L2 V c (((cfg2.win 3).blk t).view.emb (ix2 a q))
  have hq : q.val < 512 := q.isLt
  have hemb : ((cfg2.win 3).blk t).view.emb (ix2 a q) = (ix2 a (⟨t.val * 512 + q.val, by omega⟩ : Fin 1024) : S128x1024.Idx) := by
    funext r; apply Fin.ext
    match r with
    | ⟨0, _⟩ => show win2_3.index t (0 : Fin 2) * 128 + 1 * a.val = a.val; omega
    | ⟨1, _⟩ => show win2_3.index t (1 : Fin 2) * 512 + 1 * q.val = t.val * 512 + q.val; omega
  rw [hemb]
  refine block2_apply (X2 V c) (W2 V c) (B2 V c) (Gen.iblk2 V c 0 t) (Gen.iblk2 V c 1 t) (Gen.iblk2 V c 2 t) a q
    ⟨t.val * 512 + q.val, by omega⟩ (fun k => ?_) (fun k => ?_) ?_
  · show V c (Pipeline.arrRef spec2 0) (((cfg2.win 0).blk t).view.emb (ix2 a k)) = V c (Pipeline.arrRef spec2 0) (ix2 a k)
    refine congrArg _ (funext fun r => Fin.ext ?_)
    match r with
    | ⟨0, _⟩ => show win2_0.index t (0 : Fin 2) * 128 + 1 * a.val = a.val; omega
    | ⟨1, _⟩ => show win2_0.index t (1 : Fin 2) * 1024 + 1 * k.val = k.val; omega
  · show V c (Pipeline.arrRef spec2 1) (((cfg2.win 1).blk t).view.emb (ix2 k q)) = V c (Pipeline.arrRef spec2 1) (ix2 k ⟨t.val * 512 + q.val, by omega⟩)
    refine congrArg _ (funext fun r => Fin.ext ?_)
    match r with
    | ⟨0, _⟩ => show win2_1.index t (0 : Fin 2) * 1024 + 1 * k.val = k.val; omega
    | ⟨1, _⟩ => show win2_1.index t (1 : Fin 2) * 512 + 1 * q.val = t.val * 512 + q.val; omega
  · show V c (Pipeline.arrRef spec2 2) (((cfg2.win 2).blk t).view.emb (ix2 0 q)) = V c (Pipeline.arrRef spec2 2) (ix2 0 ⟨t.val * 512 + q.val, by omega⟩)
    refine congrArg _ (funext fun r => Fin.ext ?_)
    match r with
    | ⟨0, _⟩ => show win2_2.index t (0 : Fin 2) * 1 + 1 * 0 = 0; omega
    | ⟨1, _⟩ => show win2_2.index t (1 : Fin 2) * 512 + 1 * q.val = t.val * 512 + q.val; omega

/-- An entry of the output array is in point `t`'s block iff each coordinate is in the block's range on its axis. -/
theorem mem_blk2 (t : Fin cfg2.N) (i : S128x1024.Idx) :
    i ∈ ((cfg2.win 3).blk t).view.set ↔ ∀ a : Fin 2, win2_3.index t a * S128x512.size a ≤ (i a).val
      ∧ (i a).val < win2_3.index t a * S128x512.size a + S128x512.size a := by
  show i ∈ ((View.whole main_v6).slice (win2_3.rect t)).set ↔ _
  rw [View.set_slice_whole, Rect.mem_set_unit]
  exact Iff.rfl

/-- Column `q` of the output lies in the block of point `q / 512`: the blocks tile the array. -/
theorem cover2 (i : S128x1024.Idx) :
    ∃ t : Fin cfg2.N, (cfg2.win 3).flush t = true ∧ i ∈ ((cfg2.win 3).blk t).view.set := by
  have h0 : (i 0).val < 128 := (i 0).isLt
  have h1 : (i 1).val < 1024 := (i 1).isLt
  have hN : cfg2.N = 2 := N_2
  let t : Fin cfg2.N := ⟨(i 1).val / 512, by rw [hN]; omega⟩
  have htv : t.val = (i 1).val / 512 := rfl
  obtain ⟨-, -, -, -, -, -, e30, e31⟩ := idx_facts2 t
  refine ⟨t, flush2_3 t, ?_⟩
  rw [mem_blk2]
  intro a
  match a with
  | ⟨0, _⟩ => show win2_3.index t (0 : Fin 2) * 128 ≤ (i 0).val ∧ (i 0).val < win2_3.index t (0 : Fin 2) * 128 + 128; omega
  | ⟨1, _⟩ => show win2_3.index t (1 : Fin 2) * 512 ≤ (i 1).val ∧ (i 1).val < win2_3.index t (1 : Fin 2) * 512 + 512; omega

/-- After region 2 its output array holds the whole third layer of the arrays the region found. -/
theorem final2_array (c : Dev nD) : (Gen.dat2 (F := Ideal) V c).arrAt 3 cfg2.N = L2 V c :=
  (Gen.dat2 (F := Ideal) V c).arrAt_eq_of_cover 3 (L2 V c) (fun t _ => flushed2_eq V c t) cover2

/-- Entry by entry. -/
theorem final2 (c : Dev nD) (a : Fin 128) (q : Fin 1024) :
    (Gen.dat2 (F := Ideal) V c).arrAt 3 cfg2.N (ix2 a q)
      = Cert.Mbd.denseAt (V c (Pipeline.arrRef spec2 0)) (V c (Pipeline.arrRef spec2 1))
          (fun q' => V c (Pipeline.arrRef spec2 2) (ix2 0 q')) a q := by
  rw [final2_array]; rfl

end Region2

end Cert.KernelIdeal.LayerValue

end
-- ==== Proof.KernelGlue.lean ====
/-
  The host side of the kernel program: what each buffer holds at every boundary between a stretch of host operations
  and a region, read back to the launch memory.

  The contents at a boundary are a fold through the program. A stretch of host operations rewrites only the buffers it
  writes; a region rewrites only its windows' arrays, an input window's array being left as it was entered. Walking
  the fold back, every argument array is the launch memory's, every reshaped bias is the bias read at its one row, the
  transposed tensor is the tensor read at the permuted index, and each region's output is what its pipeline leaves.
-/
import proofs.«107311_j24532853195160_2_alg».proof.Proof.Gen.KernelIdeal.Frame
import proofs.«107311_j24532853195160_2_alg».proof.Proof.Spec
import proofs.«107311_j24532853195160_2_alg».proof.Proof.Layers
import Idealize.ShloMosaic.Lib.Pipeline.Value
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## A stretch of host operations leaves every buffer it does not write -/

theorem W1_keep (c : Dev nD) (b : Ref sig .tc) (h : b ≠ main_v0 ∧ b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2⟩))

theorem W3_keep (c : Dev nD) (b : Ref sig .tc) (h : b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem W5_keep (c : Dev nD) (b : Ref sig .tc) (h : b ≠ main_v5) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

theorem W7_keep (c : Dev nD) (b : Ref sig .tc) (h : b ≠ main_v7) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.unary_writes, Finset.mem_singleton]
    exact StableHlo.devRef_ne_of_ne h))

/-! ## A buffer that no stretch and no region writes is the launch memory's -/

theorem W2_launch (c : Dev nD) (b : Ref sig .tc) (h0 : b ≠ main_v0 ∧ b ≠ main_v1) (r0 : ∀ w, Pipeline.arrRef spec0 w ≠ b) :
    W2 m ρ c (Proc.devRef .tc b) = m ((c : Thread nD τ).loc b) :=
  (W2_of_ne m ρ c b r0).trans ((W1_keep m ρ c b h0).trans rfl)

theorem W4_launch (c : Dev nD) (b : Ref sig .tc) (h0 : b ≠ main_v0 ∧ b ≠ main_v1) (r0 : ∀ w, Pipeline.arrRef spec0 w ≠ b)
    (h1 : b ≠ main_v3) (r1 : ∀ w, Pipeline.arrRef spec1 w ≠ b) :
    W4 m ρ c (Proc.devRef .tc b) = m ((c : Thread nD τ).loc b) :=
  (W4_of_ne m ρ c b r1).trans ((W3_keep m ρ c b h1).trans (W2_launch m ρ c b h0 r0))

theorem W6_launch (c : Dev nD) (b : Ref sig .tc) (h0 : b ≠ main_v0 ∧ b ≠ main_v1) (r0 : ∀ w, Pipeline.arrRef spec0 w ≠ b)
    (h1 : b ≠ main_v3) (r1 : ∀ w, Pipeline.arrRef spec1 w ≠ b) (h2 : b ≠ main_v5) (r2 : ∀ w, Pipeline.arrRef spec2 w ≠ b) :
    W6 m ρ c (Proc.devRef .tc b) = m ((c : Thread nD τ).loc b) :=
  (W6_of_ne m ρ c b r2).trans ((W5_keep m ρ c b h2).trans (W4_launch m ρ c b h0 r0 h1 r1))

theorem W8_launch (c : Dev nD) (b : Ref sig .tc) (h0 : b ≠ main_v0 ∧ b ≠ main_v1) (r0 : ∀ w, Pipeline.arrRef spec0 w ≠ b)
    (h1 : b ≠ main_v3) (r1 : ∀ w, Pipeline.arrRef spec1 w ≠ b) (h2 : b ≠ main_v5) (r2 : ∀ w, Pipeline.arrRef spec2 w ≠ b)
    (h3 : b ≠ main_v7) (r3 : ∀ w, Pipeline.arrRef spec3 w ≠ b) :
    W8 m ρ c (Proc.devRef .tc b) = m ((c : Thread nD τ).loc b) :=
  (W8_of_ne m ρ c b r3).trans ((W7_keep m ρ c b h3).trans (W6_launch m ρ c b h0 r0 h1 r1 h2 r2))

theorem W8_main_arg8 (c : Dev nD) : W8 m ρ c (Proc.devRef .tc main_arg8) = (m ((c : Thread nD τ).loc main_arg8)) :=
  W8_launch m ρ c main_arg8 (by decide) (by decide) (by decide) (by decide) (by decide) (by decide) (by decide) (by decide)

theorem W8_main_arg9 (c : Dev nD) : W8 m ρ c (Proc.devRef .tc main_arg9) = (m ((c : Thread nD τ).loc main_arg9)) :=
  W8_launch m ρ c main_arg9 (by decide) (by decide) (by decide) (by decide) (by decide) (by decide) (by decide) (by decide)

/-! ## The last stretch -/

/-- The result: the hidden layer and the discrimination feature as region 3 leaves them, joined along the columns,
    times the last weight column, plus the last bias laid down the rows. -/
theorem tail_eq (c : Dev nD) :
    W9 m ρ c (Proc.devRef .tc main_v13)
      = addf (F := Ideal) (φ := .f32)
          (Host.dotGeneral (F := Ideal) (φ₁ := .f32) (φ₂ := .f32) dot_S128x1536_S1536x1_S128x1_1_0_0_1_n_n (some .fp32)
            (concatenate (α := Ideal .f32) S128x1536 1
              [⟨S128x1024, W8 m ρ c (Proc.devRef .tc main_v6)⟩, ⟨S128x512, W8 m ρ c (Proc.devRef .tc main_v8)⟩]
              concatenates_S128x1024_S128x512_S128x1536_d1)
            (m ((c : Thread nD τ).loc main_arg8)))
          (broadcastInDim S128x1 ![0, 1] bcast_S1x1_S128x1_0_1
            (broadcastInDim S1x1 ![1] bcast_S1_S1x1_1 (m ((c : Thread nD τ).loc main_arg9)))) := by
  rw [← W8_main_arg8 m ρ c, ← W8_main_arg9 m ρ c]
  show StableHlo.after hostOps4 (W8 m ρ c) (Proc.devRef .tc main_v13) = _
  after_results

/-! ## Region 3: the discrimination feature -/

/-- Region 3's output array at its exit is what its pipeline leaves. -/
theorem W8_main_v8 (c : Dev nD) : W8 m ρ c (Proc.devRef .tc main_v8) = (dat3 (V7 m ρ) c).arrAt 2 cfg3.N :=
  W8_arr m ρ c 2

/-- The hidden layer is region 3's input window 0: an input window's array is never written back, and the transpose
    before the region writes another buffer. -/
theorem W8_main_v6 (c : Dev nD) : W8 m ρ c (Proc.devRef .tc main_v6) = W6 m ρ c (Proc.devRef .tc main_v6) :=
  calc W8 m ρ c (Proc.devRef .tc main_v6)
    _ = (dat3 (V7 m ρ) c).arrAt 0 cfg3.N := W8_arr m ρ c 0
    _ = (dat3 (V7 m ρ) c).A 0 := (dat3 (V7 m ρ) c).arrAt_in 0 rfl cfg3.N
    _ = V7 m ρ c main_v6 := A_eq3 (V7 m ρ) c 0
    _ = W6 m ρ c (Proc.devRef .tc main_v6) := W7_keep m ρ c main_v6 (by decide)

theorem V7_main_v6 (c : Dev nD) : V7 m ρ c main_v6 = W6 m ρ c (Proc.devRef .tc main_v6) :=
  W7_keep m ρ c main_v6 (by decide)

theorem W6_main_arg7 (c : Dev nD) : W6 m ρ c (Proc.devRef .tc main_arg7) = (m ((c : Thread nD τ).loc main_arg7)) :=
  W6_launch m ρ c main_arg7 (by decide) (by decide) (by decide) (by decide) (by decide) (by decide)

/-- The transposed tensor as region 3 finds it: entry `(k, h, o)` is the tensor's entry `(h, o, k)`. -/
theorem V7_main_v7 (c : Dev nD) (k : Fin 20) (h : Fin 1024) (o : Fin 512) :
    V7 m ρ c main_v7 (ix3 k h o) = (m ((c : Thread nD τ).loc main_arg7)) (ix3 h o k) := by
  have e : V7 m ρ c main_v7
      = transpose S20x1024x512 [2, 0, 1] (W6 m ρ c (Proc.devRef .tc main_arg7)) transposes_S1024x512x20_S20x1024x512_2_0_1 := by
    show StableHlo.after hostOps3 (W6 m ρ c) (Proc.devRef .tc main_v7) = _
    after_results
  rw [e, W6_main_arg7]
  exact transpose_apply _ _ _ (ix3 k h o) (ix3 h o k) (fun b => by
    match b with
    | ⟨0, _⟩ => rfl
    | ⟨1, _⟩ => rfl
    | ⟨2, _⟩ => rfl)

/-! ## Region 2: the third layer -/

theorem W6_main_v6 (c : Dev nD) : W6 m ρ c (Proc.devRef .tc main_v6) = (dat2 (V5 m ρ) c).arrAt 3 cfg2.N :=
  W6_arr m ρ c 3

/-- Region 2's input is region 1's output. -/
theorem V5_main_v4 (c : Dev nD) : V5 m ρ c main_v4 = (dat1 (V3 m ρ) c).arrAt 3 cfg1.N :=
  (W5_keep m ρ c main_v4 (by decide)).trans (W4_arr m ρ c 3)

theorem W4_main_arg5 (c : Dev nD) : W4 m ρ c (Proc.devRef .tc main_arg5) = (m ((c : Thread nD τ).loc main_arg5)) :=
  W4_launch m ρ c main_arg5 (by decide) (by decide) (by decide) (by decide)

theorem W4_main_arg6 (c : Dev nD) : W4 m ρ c (Proc.devRef .tc main_arg6) = (m ((c : Thread nD τ).loc main_arg6)) :=
  W4_launch m ρ c main_arg6 (by decide) (by decide) (by decide) (by decide)

theorem V5_main_arg5 (c : Dev nD) : V5 m ρ c main_arg5 = (m ((c : Thread nD τ).loc main_arg5)) :=
  (W5_keep m ρ c main_arg5 (by decide)).trans (W4_main_arg5 m ρ c)

/-- The bias cast to one row, as the region finds it: entry `(0, q)` is the bias at `q`. -/
theorem V5_main_v5 (c : Dev nD) (q : Fin 1024) :
    V5 m ρ c main_v5 (ix2 (0 : Fin 1) q) = (m ((c : Thread nD τ).loc main_arg6)) (ix1 q) := by
  have e : V5 m ρ c main_v5 = shapeCast S1x1024 (W4 m ρ c (Proc.devRef .tc main_arg6)) shapeCasts_S1024_S1x1024 := by
    show StableHlo.after hostOps2 (W4 m ρ c) (Proc.devRef .tc main_v5) = _
    after_results
    rfl
  rw [e, W4_main_arg6]
  exact shapeCast_apply _ _ (ix2 (0 : Fin 1) q) (ix1 q) (by
    rw [Shape.rowMajor_val_one, Shape.rowMajor_val_two]; show q.val = 0 * 1024 + q.val; omega)

/-! ## Region 1: the second layer -/

/-- Region 1's input is region 0's output. -/
theorem V3_main_v2 (c : Dev nD) : V3 m ρ c main_v2 = (dat0 (V1 m ρ) c).arrAt 3 cfg0.N :=
  (W3_keep m ρ c main_v2 (by decide)).trans (W2_arr m ρ c 3)

theorem W2_main_arg3 (c : Dev nD) : W2 m ρ c (Proc.devRef .tc main_arg3) = (m ((c : Thread nD τ).loc main_arg3)) :=
  W2_launch m ρ c main_arg3 (by decide) (by decide)

theorem W2_main_arg4 (c : Dev nD) : W2 m ρ c (Proc.devRef .tc main_arg4) = (m ((c : Thread nD τ).loc main_arg4)) :=
  W2_launch m ρ c main_arg4 (by decide) (by decide)

theorem V3_main_arg3 (c : Dev nD) : V3 m ρ c main_arg3 = (m ((c : Thread nD τ).loc main_arg3)) :=
  (W3_keep m ρ c main_arg3 (by decide)).trans (W2_main_arg3 m ρ c)

/-- The bias cast to one row, as the region finds it: entry `(0, q)` is the bias at `q`. -/
theorem V3_main_v3 (c : Dev nD) (q : Fin 1024) :
    V3 m ρ c main_v3 (ix2 (0 : Fin 1) q) = (m ((c : Thread nD τ).loc main_arg4)) (ix1 q) := by
  have e : V3 m ρ c main_v3 = shapeCast S1x1024 (W2 m ρ c (Proc.devRef .tc main_arg4)) shapeCasts_S1024_S1x1024 := by
    show StableHlo.after hostOps1 (W2 m ρ c) (Proc.devRef .tc main_v3) = _
    after_results
    rfl
  rw [e, W2_main_arg4]
  exact shapeCast_apply _ _ (ix2 (0 : Fin 1) q) (ix1 q) (by
    rw [Shape.rowMajor_val_one, Shape.rowMajor_val_two]; show q.val = 0 * 1024 + q.val; omega)

/-! ## Region 0: the first layer -/

theorem W0_main_arg2 (c : Dev nD) : W0 m ρ c (Proc.devRef .tc main_arg2) = (m ((c : Thread nD τ).loc main_arg2)) := rfl

/-- The input cast to the narrower float type: on the extended reals the cast is the identity, entry by entry. -/
theorem V1_main_v0 (c : Dev nD) : (V1 m ρ c main_v0 : S128x2048.Idx → EReal) = (m ((c : Thread nD τ).loc main_arg0)) := by
  show StableHlo.after hostOps0 (W0 m ρ c) (Proc.devRef .tc main_v0) = _
  after_results
  rfl

theorem V1_main_arg1 (c : Dev nD) : V1 m ρ c main_arg1 = (m ((c : Thread nD τ).loc main_arg1)) :=
  (W1_keep m ρ c main_arg1 (by decide)).trans rfl

/-- The bias cast to one row, as the region finds it: entry `(0, q)` is the bias at `q`. -/
theorem V1_main_v1 (c : Dev nD) (q : Fin 2048) :
    V1 m ρ c main_v1 (ix2 (0 : Fin 1) q) = (m ((c : Thread nD τ).loc main_arg2)) (ix1 q) := by
  have e : V1 m ρ c main_v1 = shapeCast S1x2048 (W0 m ρ c (Proc.devRef .tc main_arg2)) shapeCasts_S2048_S1x2048 := by
    show StableHlo.after hostOps0 (W0 m ρ c) (Proc.devRef .tc main_v1) = _
    after_results
    rfl
  rw [e, W0_main_arg2]
  exact shapeCast_apply _ _ (ix2 (0 : Fin 1) q) (ix1 q) (by
    rw [Shape.rowMajor_val_one, Shape.rowMajor_val_two]; show q.val = 0 * 2048 + q.val; omega)

/-! ## The three layers, from the launch memory -/

/-- A layer of equal arrays is the same layer. -/
theorem dense_congr {n k p : Nat} {x x' : (⟨2, ![n, k]⟩ : Shape).Idx → EReal} {W W' : (⟨2, ![k, p]⟩ : Shape).Idx → EReal}
    {b b' : Fin p → EReal} (hx : x = x') (hW : W = W') (hb : ∀ q, b q = b' q) :
    Cert.Mbd.dense x W b = Cert.Mbd.dense x' W' b' := by
  subst hx hW
  have hbb : b = b' := funext hb
  subst hbb
  rfl

/-- Region 0 leaves the first layer of the launch arrays. -/
theorem layer0_kernel (c : Dev nD) :
    (dat0 (V1 m ρ) c).arrAt 3 cfg0.N = Cert.Mbd.dense (m ((c : Thread nD τ).loc main_arg0)) (m ((c : Thread nD τ).loc main_arg1)) (fun q => (m ((c : Thread nD τ).loc main_arg2)) (ix1 q)) :=
  (LayerValue.final0_array (V1 m ρ) c).trans
    (dense_congr (V1_main_v0 m ρ c) (V1_main_arg1 m ρ c) (V1_main_v1 m ρ c))

/-- Region 1 leaves the second layer over the first. -/
theorem layer1_kernel (c : Dev nD) :
    (dat1 (V3 m ρ) c).arrAt 3 cfg1.N = Cert.Mbd.dense (Cert.Mbd.dense (m ((c : Thread nD τ).loc main_arg0)) (m ((c : Thread nD τ).loc main_arg1)) (fun q => (m ((c : Thread nD τ).loc main_arg2)) (ix1 q))) (m ((c : Thread nD τ).loc main_arg3)) (fun q => (m ((c : Thread nD τ).loc main_arg4)) (ix1 q)) :=
  (LayerValue.final1_array (V3 m ρ) c).trans
    (dense_congr ((V3_main_v2 m ρ c).trans (layer0_kernel m ρ c)) (V3_main_arg3 m ρ c) (V3_main_v3 m ρ c))

/-- The hidden layer as region 2 leaves it is the specification's `hidden` of the launch arrays. -/
theorem hidden_kernel (c : Dev nD) :
    W6 m ρ c (Proc.devRef .tc main_v6)
      = Cert.Mbd.hidden (m ((c : Thread nD τ).loc main_arg0)) (m ((c : Thread nD τ).loc main_arg1)) (fun q => (m ((c : Thread nD τ).loc main_arg2)) (ix1 q)) (m ((c : Thread nD τ).loc main_arg3)) (fun q => (m ((c : Thread nD τ).loc main_arg4)) (ix1 q)) (m ((c : Thread nD τ).loc main_arg5)) (fun q => (m ((c : Thread nD τ).loc main_arg6)) (ix1 q)) :=
  (W6_main_v6 m ρ c).trans ((LayerValue.final2_array (V5 m ρ) c).trans
    (dense_congr ((V5_main_v4 m ρ c).trans (layer1_kernel m ρ c)) (V5_main_arg5 m ρ c) (V5_main_v5 m ρ c)))

/-! ## The result, with the hidden layer read back to the launch memory -/

/-- The kernel program's result: the specification's hidden layer and region 3's output joined along the columns,
    times the last weight column, plus the last bias laid down the rows. -/
theorem result_kernel (c : Dev nD) :
    W9 m ρ c (Proc.devRef .tc main_v13)
      = addf (F := Ideal) (φ := .f32)
          (Host.dotGeneral (F := Ideal) (φ₁ := .f32) (φ₂ := .f32) dot_S128x1536_S1536x1_S128x1_1_0_0_1_n_n (some .fp32)
            (concatenate (α := Ideal .f32) S128x1536 1
              [⟨S128x1024, (Cert.Mbd.hidden (m ((c : Thread nD τ).loc main_arg0)) (m ((c : Thread nD τ).loc main_arg1)) (fun q => (m ((c : Thread nD τ).loc main_arg2)) (ix1 q)) (m ((c : Thread nD τ).loc main_arg3)) (fun q => (m ((c : Thread nD τ).loc main_arg4)) (ix1 q)) (m ((c : Thread nD τ).loc main_arg5)) (fun q => (m ((c : Thread nD τ).loc main_arg6)) (ix1 q)))⟩,
               ⟨S128x512, (dat3 (V7 m ρ) c).arrAt 2 cfg3.N⟩]
              concatenates_S128x1024_S128x512_S128x1536_d1)
            (m ((c : Thread nD τ).loc main_arg8)))
          (broadcastInDim S128x1 ![0, 1] bcast_S1x1_S128x1_0_1
            (broadcastInDim S1x1 ![1] bcast_S1_S1x1_1 (m ((c : Thread nD τ).loc main_arg9)))) := by
  rw [tail_eq, W8_main_v6, hidden_kernel, W8_main_v8]

end Cert.KernelIdeal.Glue

end
-- ==== Proof.Cols.lean ====
/-
  Column `128·k + l` of a row of 2560 = 20 × 128 entries: the row-major position of `(k, l)` in a [20, 128] tile.
-/
import Mathlib.Data.Fin.Basic
import Mathlib.Tactic

namespace Cert.Mbd

/-- The flat column of lane `l` in band `k`. -/
def col (k : Fin 20) (l : Fin 128) : Fin 2560 := ⟨128 * k.val + l.val, by have := k.isLt; have := l.isLt; omega⟩

theorem col_val (k : Fin 20) (l : Fin 128) : (col k l).val = 128 * k.val + l.val := rfl

theorem col_div (k : Fin 20) (l : Fin 128) : (col k l).val / 128 = k.val := by
  have := l.isLt; rw [col_val]; omega

theorem col_mod (k : Fin 20) (l : Fin 128) : (col k l).val % 128 = l.val := by
  have := l.isLt; rw [col_val]; omega

/-- Every column is the column of exactly one band and lane. -/
theorem exists_col (q : Fin 2560) : ∃ (k : Fin 20) (l : Fin 128), q = col k l :=
  ⟨⟨q.val / 128, by have := q.isLt; omega⟩, ⟨q.val % 128, Nat.mod_lt _ (by norm_num)⟩, Fin.ext (by rw [col_val]; show q.val = 128 * (q.val / 128) + q.val % 128; omega)⟩

end Cert.Mbd
-- ==== Proof.BlockSpec.lean ====
/-
  Region 3, one grid point, as a function of its two input blocks: the `[128, 1024]` block `H` of hidden activations
  and the `[20, 1024, 128]` block `T₂` of the transposed projection tensor.

  `band H T₂ b k l = ∑ h, H[b, h] · T₂[k, h, l]`; the block's entry at row `b`, lane `l` is
  `∑ j, exp (-(∑ k, |band b k l - band j k l|)) - 1`, the absolute value spelt `max x (-x)`.
-/
import proofs.«107311_j24532853195160_2_alg».proof.KernelIdeal
import Idealize.ShloMosaic.PureOps.Ideal
import Idealize.ShloMosaic.Lib.ValueIdx

noncomputable section

namespace Cert.KernelIdeal.MbdBlock

open Cert.KernelIdeal Idealize.ShloMosaic Idealize.ShloMosaic.ValueIdx

/-- The band entry `P[b, k, l] = ∑ h, H[b, h] · T₂[k, h, l]` of the point's two input blocks. -/
def band (x0 : Vec Ideal S128x1024 .f32) (x1 : Vec Ideal S20x1024x128 .f32) (b : Fin 128) (k : Fin 20) (l : Fin 128) : EReal :=
  ∑ h : Fin 1024, x0 (ix2 b h) * x1 (ix3 k h l)

/-- The block's entry at row `b`, lane `l`. -/
def blockAt (x0 : Vec Ideal S128x1024 .f32) (x1 : Vec Ideal S20x1024x128 .f32) (b l : Fin 128) : EReal :=
  (∑ j : Fin 128, Ideal.exp (-(∑ k : Fin 20, max (band x0 x1 b k l - band x0 x1 j k l) (-(band x0 x1 b k l - band x0 x1 j k l)))))
    - Ideal.ofBits .f32 0x3F800000#32

/-- The block as one function of its index. -/
def blockFn (x0 : Vec Ideal S128x1024 .f32) (x1 : Vec Ideal S20x1024x128 .f32) : S128x128.Idx → EReal :=
  fun y => blockAt x0 x1 (y 0) (y 1)

theorem blockFn_apply (x0 : Vec Ideal S128x1024 .f32) (x1 : Vec Ideal S20x1024x128 .f32) (b l : Fin 128) :
    blockFn x0 x1 (ix2 b l) = blockAt x0 x1 b l := rfl

end Cert.KernelIdeal.MbdBlock

end
-- ==== Proof.PairValue.lean ====
/-
  The minibatch-discrimination trip, as a value: one trip of the third region's loop takes the whole projected
  scratch `[128, 2560]` and a slab of 32 of its rows, and for every slab row `r` and lane `l` returns
  `∑ j, exp (-(∑ k, |slab[r, 128 k + l] - all[j, 128 k + l]|)) - 1`, the sum over the 128 rows `j` and the 20 bands `k`.
  Only vector terms are read here: no memory, no frame.
-/
import proofs.«107311_j24532853195160_2_alg».proof.Proof.Gen.KernelIdeal.Skeleton
import proofs.«107311_j24532853195160_2_alg».proof.Proof.Cols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PairValue

open Cert.KernelIdeal Cert.KernelIdeal.Gen Cert.Mbd Idealize.ShloMosaic Idealize.ShloMosaic.ValueIdx

/-! ## The two broadcast operands of one band, read at an index -/

section Layout
variable {α : Type}

/-- Band `o` of the slab, as a row vector copied over the 128 rows of the pair axis: at `(r, j, l)` it is the slab at
    `(r, o, l)`. -/
theorem slabBand_apply (o : Nat) (A : S32x20x128.Idx → α) (hs : S32x20x128.Slices ![0, o, 0] S32x1x128)
    (h1 : S32x1x128.ShapeCasts S32x128) (h2 : S32x128.ShapeCasts S32x1x128) (hb : S32x1x128.Broadcasts S32x128x128)
    (r : Fin 32) (j l : Fin 128) (k : Fin 20) (hk : k.val = o) :
    broadcastTo S32x128x128 (shapeCast S32x1x128 (shapeCast S32x128 (extractStridedSlice S32x1x128 ![0, o, 0] A hs) h1) h2) hb
      (ix3 r j l) = A (ix3 r k l) := by
  refine (broadcastTo_apply _ hb (ix3 r j l) (ix3 r (0 : Fin 1) l) (fun a => ?_)).trans ?_
  · match a with
    | ⟨0, _⟩ => rfl
    | ⟨1, _⟩ => rfl
    | ⟨2, _⟩ => rfl
  · rw [shapeCast_shapeCast]
    exact slice3_axis1_apply o A hs r (0 : Fin 1) l k (by rw [hk]; rfl)

/-- Band `o` of the whole scratch, as a matrix copied over the 32 slab rows: at `(r, j, l)` it is the scratch at
    `(j, o, l)`. -/
theorem allBand_apply (o : Nat) (B : S128x20x128.Idx → α) (hs : S128x20x128.Slices ![0, o, 0] S128x1x128)
    (h1 : S128x1x128.ShapeCasts S128x128) (h2 : S128x128.ShapeCasts S1x128x128) (hb : S1x128x128.Broadcasts S32x128x128)
    (r : Fin 32) (j l : Fin 128) (k : Fin 20) (hk : k.val = o) :
    broadcastTo S32x128x128 (shapeCast S1x128x128 (shapeCast S128x128 (extractStridedSlice S128x1x128 ![0, o, 0] B hs) h1) h2) hb
      (ix3 r j l) = B (ix3 j k l) := by
  refine (broadcastTo_apply _ hb (ix3 r j l) (ix3 (0 : Fin 1) j l) (fun a => ?_)).trans ?_
  · match a with
    | ⟨0, _⟩ => rfl
    | ⟨1, _⟩ => rfl
    | ⟨2, _⟩ => rfl
  · refine (shapeCast_ab_1ab_apply _ h2 (0 : Fin 1) j l).trans ?_
    refine (shapeCast_apply _ h1 (ix2 j l) (ix3 j (0 : Fin 1) l) ?_).trans ?_
    · rw [Shape.rowMajor_val_three, Shape.rowMajor_val_two]
      show (j.val * 1 + 0) * 128 + l.val = j.val * 128 + l.val
      omega
    · exact slice3_axis1_apply o B hs j (0 : Fin 1) l k (by rw [hk]; rfl)

/-- The slab `[32, 2560]` seen as `[32, 20, 128]`: entry `(r, k, l)` is column `128 k + l` of row `r`. -/
theorem slabCast_apply (v : S32x2560.Idx → α) (h : S32x2560.ShapeCasts S32x20x128) (r : Fin 32) (k : Fin 20) (l : Fin 128) :
    shapeCast S32x20x128 v h (ix3 r k l) = v (ix2 r (col k l)) := by
  refine shapeCast_apply v h (ix3 r k l) (ix2 r (col k l)) ?_
  rw [Shape.rowMajor_val_three, Shape.rowMajor_val_two]
  show r.val * 2560 + (128 * k.val + l.val) = (r.val * 20 + k.val) * 128 + l.val
  omega

/-- The scratch `[128, 2560]` seen as `[128, 20, 128]`, likewise. -/
theorem allCast_apply (v : S128x2560.Idx → α) (h : S128x2560.ShapeCasts S128x20x128) (j : Fin 128) (k : Fin 20) (l : Fin 128) :
    shapeCast S128x20x128 v h (ix3 j k l) = v (ix2 j (col k l)) := by
  refine shapeCast_apply v h (ix3 j k l) (ix2 j (col k l)) ?_
  rw [Shape.rowMajor_val_three, Shape.rowMajor_val_two]
  show j.val * 2560 + (128 * k.val + l.val) = (j.val * 20 + k.val) * 128 + l.val
  omega

end Layout

/-! ## One band's term, and the payloads as sums of band terms -/

section Band
variable {F : FTy → Type} [FloatOps F]

/-- The term of band `o`: the absolute value of (band `o` of the slab, copied over the pair axis) minus (band `o` of the
    whole scratch, copied over the slab rows), spelt with the program's own layout operations. -/
def band (o : Nat) (A : FVec F S32x20x128 .f32) (B : FVec F S128x20x128 .f32)
    (hA : S32x20x128.Slices ![0, o, 0] S32x1x128) (hB : S128x20x128.Slices ![0, o, 0] S128x1x128) :
    FVec F S32x128x128 .f32 :=
  absf (subf
    (broadcastTo S32x128x128 (shapeCast S32x1x128 (shapeCast S32x128 (extractStridedSlice S32x1x128 ![0, o, 0] A hA)
      shapeCasts_S32x1x128_S32x128) shapeCasts_S32x128_S32x1x128) broadcasts_S32x1x128_S32x128x128)
    (broadcastTo S32x128x128 (shapeCast S1x128x128 (shapeCast S128x128 (extractStridedSlice S128x1x128 ![0, o, 0] B hB)
      shapeCasts_S128x1x128_S128x128) shapeCasts_S128x128_S1x128x128) broadcasts_S1x128x128_S32x128x128))

/-- Bands 0 to 3, added to the zero splat from the left. -/
theorem pay5_eq (V : FVec F S128x20x128 .f32) (v128 : Vec F S32x2560 .f32) :
    k3_pay5 V v128 =
      addf (addf (addf (addf (broadcast S32x128x128 (Scalar.ofBits .f32 0x00000000#32))
        (band 0 (k3_pay4 v128) V slices_S32x20x128_o0_0_0_S32x1x128 slices_S128x20x128_o0_0_0_S128x1x128))
        (band 1 (k3_pay4 v128) V slices_S32x20x128_o0_1_0_S32x1x128 slices_S128x20x128_o0_1_0_S128x1x128))
        (band 2 (k3_pay4 v128) V slices_S32x20x128_o0_2_0_S32x1x128 slices_S128x20x128_o0_2_0_S128x1x128))
        (band 3 (k3_pay4 v128) V slices_S32x20x128_o0_3_0_S32x1x128 slices_S128x20x128_o0_3_0_S128x1x128) := rfl

/-- Bands 4 to 9 added to the running sum; band 4's two operands arrive already cut and cast. -/
theorem pay8_eq (V : FVec F S128x20x128 .f32) (v128 : Vec F S32x2560 .f32) (acc : FVec F S32x128x128 .f32) :
    k3_pay8 V (k3_pay4 v128) acc (k3_pay6 v128) (k3_pay7 V) =
      addf (addf (addf (addf (addf (addf acc
        (band 4 (k3_pay4 v128) V slices_S32x20x128_o0_4_0_S32x1x128 slices_S128x20x128_o0_4_0_S128x1x128))
        (band 5 (k3_pay4 v128) V slices_S32x20x128_o0_5_0_S32x1x128 slices_S128x20x128_o0_5_0_S128x1x128))
        (band 6 (k3_pay4 v128) V slices_S32x20x128_o0_6_0_S32x1x128 slices_S128x20x128_o0_6_0_S128x1x128))
        (band 7 (k3_pay4 v128) V slices_S32x20x128_o0_7_0_S32x1x128 slices_S128x20x128_o0_7_0_S128x1x128))
        (band 8 (k3_pay4 v128) V slices_S32x20x128_o0_8_0_S32x1x128 slices_S128x20x128_o0_8_0_S128x1x128))
        (band 9 (k3_pay4 v128) V slices_S32x20x128_o0_9_0_S32x1x128 slices_S128x20x128_o0_9_0_S128x1x128) := rfl

/-- Bands 10 to 14 added to the running sum. -/
theorem pay9_eq (V : FVec F S128x20x128 .f32) (A : FVec F S32x20x128 .f32) (acc : FVec F S32x128x128 .f32) :
    k3_pay9 V A acc =
      addf (addf (addf (addf (addf acc
        (band 10 A V slices_S32x20x128_o0_10_0_S32x1x128 slices_S128x20x128_o0_10_0_S128x1x128))
        (band 11 A V slices_S32x20x128_o0_11_0_S32x1x128 slices_S128x20x128_o0_11_0_S128x1x128))
        (band 12 A V slices_S32x20x128_o0_12_0_S32x1x128 slices_S128x20x128_o0_12_0_S128x1x128))
        (band 13 A V slices_S32x20x128_o0_13_0_S32x1x128 slices_S128x20x128_o0_13_0_S128x1x128))
        (band 14 A V slices_S32x20x128_o0_14_0_S32x1x128 slices_S128x20x128_o0_14_0_S128x1x128) := rfl

/-- Bands 15 to 19 added to the running sum, then `exp (0 - ·)`, the sum over the pair axis, and `- 1`. -/
theorem pay12_eq (V : FVec F S128x20x128 .f32) (A : FVec F S32x20x128 .f32) (acc : FVec F S32x128x128 .f32) :
    k3_pay12 V A acc (k3_pay10 A) (k3_pay11 V) =
      subf (multiReduction .add [1] S32x128
        (exp (subf (broadcast S32x128x128 (Scalar.ofBits .f32 0x00000000#32))
          (addf (addf (addf (addf (addf acc
            (band 15 A V slices_S32x20x128_o0_15_0_S32x1x128 slices_S128x20x128_o0_15_0_S128x1x128))
            (band 16 A V slices_S32x20x128_o0_16_0_S32x1x128 slices_S128x20x128_o0_16_0_S128x1x128))
            (band 17 A V slices_S32x20x128_o0_17_0_S32x1x128 slices_S128x20x128_o0_17_0_S128x1x128))
            (band 18 A V slices_S32x20x128_o0_18_0_S32x1x128 slices_S128x20x128_o0_18_0_S128x1x128))
            (band 19 A V slices_S32x20x128_o0_19_0_S32x1x128 slices_S128x20x128_o0_19_0_S128x1x128))))
        0x00000000#32 reduces_S32x128x128_S32x128 (.inl rfl) rfl)
      (broadcast S32x128 (Scalar.ofBits .f32 0x3F800000#32)) := rfl

end Band

/-! ## At the extended reals -/

section AtIdeal

/-- The absolute difference, in band `k` and lane `l`, between slab row `r` and scratch row `j`. -/
def gap (v122 : Vec Ideal S128x2560 .f32) (v128 : Vec Ideal S32x2560 .f32) (r : Fin 32) (j l : Fin 128) (k : Fin 20) : EReal :=
  max (v128 (ix2 r (col k l)) - v122 (ix2 j (col k l))) (-(v128 (ix2 r (col k l)) - v122 (ix2 j (col k l))))

/-- An absolute value of a difference, read at an index. -/
theorem absf_subf_apply {s : Shape} {φ : FTy} (x y : FVec Ideal s φ) (i : s.Idx) :
    absf (subf x y) i = max (x i - y i) (-(x i - y i)) := rfl

/-- Band `k`'s term at `(r, j, l)` is the gap of that band. -/
theorem band_apply (o : Nat) (v122 : Vec Ideal S128x2560 .f32) (v128 : Vec Ideal S32x2560 .f32)
    (hA : S32x20x128.Slices ![0, o, 0] S32x1x128) (hB : S128x20x128.Slices ![0, o, 0] S128x1x128)
    (r : Fin 32) (j l : Fin 128) (k : Fin 20) (hk : k.val = o) :
    band o (k3_pay4 v128) (k3_pay3 v122) hA hB (ix3 r j l) = gap v122 v128 r j l k := by
  unfold band
  rw [absf_subf_apply, slabBand_apply o _ hA _ _ _ r j l k hk, allBand_apply o _ hB _ _ _ r j l k hk]
  rw [show k3_pay4 v128 (ix3 r k l) = v128 (ix2 r (col k l)) from slabCast_apply v128 _ r k l,
    show k3_pay3 v122 (ix3 j k l) = v122 (ix2 j (col k l)) from allCast_apply v122 _ j k l]
  rfl

/-- `exp (0 - x)` read at an index: `0 - x = -x` on the extended reals. -/
theorem exp_zero_subf_apply {s : Shape} (x : FVec Ideal s .f32) (i : s.Idx) :
    exp (subf (broadcast s (Scalar.ofBits (F := Ideal) .f32 0x00000000#32)) x) i = Ideal.exp (-(x i)) := by
  show Ideal.exp (Ideal.ofBits .f32 0x00000000#32 - x i) = _
  rw [Ideal.ofBits_zero_f32, zero_sub]

/-- The sum over the pair axis of a `[32, 128, 128]` array, read at `(r, l)`. -/
theorem laneSum_apply (src : FVec Ideal S32x128x128 .f32) (hφ : FKind.Formats .f32)
    (hacc : (0x00000000#32 : BitVec (FTy.bits .f32)) = FKind.add.neutral .f32 hφ) (r : Fin 32) (l : Fin 128) :
    multiReduction .add [1] S32x128 src 0x00000000#32 reduces_S32x128x128_S32x128 hφ hacc (ix2 r l)
      = ∑ j : Fin 128, src (ix3 r j l) := by
  refine (Ideal.multiReduction_add_single src 0x00000000#32 reduces_S32x128x128_S32x128 hφ hacc (ix2 r l)).trans ?_
  refine Finset.sum_congr rfl (fun j _ => congrArg src ?_)
  funext a
  match a with
  | ⟨0, _⟩ => rfl
  | ⟨1, _⟩ => rfl
  | ⟨2, _⟩ => rfl

/-- Twenty terms added one at a time to zero from the left are their sum. -/
theorem sum20 (T : Fin 20 → EReal) :
    (0 : EReal) + T 0 + T 1 + T 2 + T 3 + T 4 + T 5 + T 6 + T 7 + T 8 + T 9 + T 10 + T 11 + T 12 + T 13 + T 14 + T 15
      + T 16 + T 17 + T 18 + T 19 = ∑ k : Fin 20, T k := by
  simp only [Fin.sum_univ_castSucc, Fin.sum_univ_zero]
  rfl

/-- The running sum after bands 0 to 3. -/
theorem pay5_apply (v122 : Vec Ideal S128x2560 .f32) (v128 : Vec Ideal S32x2560 .f32) (r : Fin 32) (j l : Fin 128) :
    k3_pay5 (k3_pay3 v122) v128 (ix3 r j l) =
      (0 : EReal) + gap v122 v128 r j l 0 + gap v122 v128 r j l 1 + gap v122 v128 r j l 2 + gap v122 v128 r j l 3 := by
  rw [pay5_eq]
  simp only [addf_apply]
  rw [band_apply 0 v122 v128 _ _ r j l 0 rfl, band_apply 1 v122 v128 _ _ r j l 1 rfl,
    band_apply 2 v122 v128 _ _ r j l 2 rfl, band_apply 3 v122 v128 _ _ r j l 3 rfl]
  refine congrArg (fun z => z + gap v122 v128 r j l 0 + gap v122 v128 r j l 1 + gap v122 v128 r j l 2 + gap v122 v128 r j l 3) ?_
  exact Ideal.ofBits_zero_f32

/-- Bands 4 to 9 added to a running sum. -/
theorem pay8_apply (v122 : Vec Ideal S128x2560 .f32) (v128 : Vec Ideal S32x2560 .f32) (acc : FVec Ideal S32x128x128 .f32)
    (r : Fin 32) (j l : Fin 128) :
    k3_pay8 (k3_pay3 v122) (k3_pay4 v128) acc (k3_pay6 v128) (k3_pay7 (k3_pay3 v122)) (ix3 r j l) =
      acc (ix3 r j l) + gap v122 v128 r j l 4 + gap v122 v128 r j l 5 + gap v122 v128 r j l 6 + gap v122 v128 r j l 7
        + gap v122 v128 r j l 8 + gap v122 v128 r j l 9 := by
  rw [pay8_eq]
  simp only [addf_apply]
  rw [band_apply 4 v122 v128 _ _ r j l 4 rfl, band_apply 5 v122 v128 _ _ r j l 5 rfl,
    band_apply 6 v122 v128 _ _ r j l 6 rfl, band_apply 7 v122 v128 _ _ r j l 7 rfl,
    band_apply 8 v122 v128 _ _ r j l 8 rfl, band_apply 9 v122 v128 _ _ r j l 9 rfl]

/-- Bands 10 to 14 added to a running sum. -/
theorem pay9_apply (v122 : Vec Ideal S128x2560 .f32) (v128 : Vec Ideal S32x2560 .f32) (acc : FVec Ideal S32x128x128 .f32)
    (r : Fin 32) (j l : Fin 128) :
    k3_pay9 (k3_pay3 v122) (k3_pay4 v128) acc (ix3 r j l) =
      acc (ix3 r j l) + gap v122 v128 r j l 10 + gap v122 v128 r j l 11 + gap v122 v128 r j l 12
        + gap v122 v128 r j l 13 + gap v122 v128 r j l 14 := by
  rw [pay9_eq]
  simp only [addf_apply]
  rw [band_apply 10 v122 v128 _ _ r j l 10 rfl, band_apply 11 v122 v128 _ _ r j l 11 rfl,
    band_apply 12 v122 v128 _ _ r j l 12 rfl, band_apply 13 v122 v128 _ _ r j l 13 rfl,
    band_apply 14 v122 v128 _ _ r j l 14 rfl]

end AtIdeal

/-! ## One trip -/

/-- What one trip of the loop stores, from the whole scratch `v122` and the slab `v128` it loads: the payloads of the
    trip composed in program order. -/
def tripPay {F : FTy → Type} [FloatOps F] (v122 : Vec F S128x2560 .f32) (v128 : Vec F S32x2560 .f32) : FVec F S32x128 .f32 :=
  k3_pay12 (k3_pay3 v122) (k3_pay4 v128)
    (k3_pay9 (k3_pay3 v122) (k3_pay4 v128)
      (k3_pay8 (k3_pay3 v122) (k3_pay4 v128) (k3_pay5 (k3_pay3 v122) v128) (k3_pay6 v128) (k3_pay7 (k3_pay3 v122))))
    (k3_pay10 (k3_pay4 v128)) (k3_pay11 (k3_pay3 v122))

/-- One trip at `(r, l)`: the sum over the 128 scratch rows `j` of `exp` of minus the L1 distance, over the 20 bands, between
    slab row `r` and scratch row `j` in lane `l`; minus one. -/
theorem tripPay_apply (v122 : Vec Ideal S128x2560 .f32) (v128 : Vec Ideal S32x2560 .f32) (r : Fin 32) (l : Fin 128) :
    tripPay v122 v128 (ix2 r l) =
      (∑ j : Fin 128, Ideal.exp (-(∑ k : Fin 20,
        max (v128 (ix2 r (col k l)) - v122 (ix2 j (col k l))) (-(v128 (ix2 r (col k l)) - v122 (ix2 j (col k l)))))))
        - Ideal.ofBits .f32 0x3F800000#32 := by
  unfold tripPay
  rw [pay12_eq]
  refine (subf_apply _ _ (ix2 r l)).trans ?_
  refine congrArg₂ (· - ·) ((laneSum_apply _ _ _ r l).trans (Finset.sum_congr rfl (fun j _ => ?_))) rfl
  refine (exp_zero_subf_apply _ (ix3 r j l)).trans (congrArg (fun z => Ideal.exp (-z)) ?_)
  simp only [addf_apply]
  rw [band_apply 15 v122 v128 _ _ r j l 15 rfl, band_apply 16 v122 v128 _ _ r j l 16 rfl,
    band_apply 17 v122 v128 _ _ r j l 17 rfl, band_apply 18 v122 v128 _ _ r j l 18 rfl,
    band_apply 19 v122 v128 _ _ r j l 19 rfl, pay9_apply, pay8_apply, pay5_apply]
  exact sum20 (gap v122 v128 r j l)

end Cert.KernelIdeal.PairValue

end
-- ==== Proof.MbdBlock.lean ====
/-
  Region 3, one grid point: what the body leaves in its output block.

  The body fills a scratch `[128, 2560]` with the twenty bands `P[·, k, ·] = H · T₂[k]`, then, 32 rows at a time, stores
  for row `b` and lane `l` the value `∑ j, exp (-(∑ k, |P[b, k, l] - P[j, k, l]|)) - 1`. The four 32-row stores tile the
  block, each a restriction of one function of the block's index, so the block ends holding that function.
-/
import proofs.«107311_j24532853195160_2_alg».proof.Proof.Gen.KernelIdeal.Frame
import proofs.«107311_j24532853195160_2_alg».proof.Proof.Cols

import proofs.«107311_j24532853195160_2_alg».proof.Proof.BlockSpec
import proofs.«107311_j24532853195160_2_alg».proof.Proof.PairValue
import Idealize.ShloMosaic.Lib.Pipeline.Value
import Idealize.ShloMosaic.Lib.ValueIdx
import Idealize.ShloMosaic.Lib.Tactic

set_option maxRecDepth 16384

noncomputable section

namespace Cert.KernelIdeal.MbdBlock

open Cert.KernelIdeal Cert.KernelIdeal.Gen Cert.Mbd
open Idealize.ShloMosaic Idealize.ShloMosaic.TcCoe Idealize.ShloMosaic.Tactic Idealize.ShloMosaic.ValueIdx
open Idealize.SL Idealize.SL.Sem
open Cert.KernelIdeal.PairValue (tripPay tripPay_apply)

variable {F : FTy → Type} [FloatOps F]

/-- A trip of the loop stores ONE piece: rows `32k … 32k+31` of the block, the trip's value of the whole scratch and
    of the trip's slab of it. -/
theorem tripL_eq (c : Dev nD) (i : grid3.Coords) (arg1 : Memref sig .tc .vmem S128x1024 .f32) (harg1 : arg1.IsWhole) (arg2 : Memref sig .tc .vmem S20x1024x128 .f32) (harg2 : arg2.IsWhole) (arg3 : Memref sig .tc .vmem S128x128 .f32) (harg3 : arg3.IsWhole) (arg4 : Memref sig .tc .vmem S128x2560 .f32) (harg4 : arg4.IsWhole)
    (v122 : Vec F S128x2560 .f32) (X : BufTy.Contents (Elt F) arg4.view.ty) (k : Fin k3_t1_loop.trips) :
    tripL_k3_t1 (F := F) Variants.none c none i arg1 harg1 arg2 harg2 arg3 harg3 arg4 harg4 v122 X k
      = [⟨Rect.unit (s := S128x128) (k3_off2 k) S32x128.size (k3_off2_inb k),
          tripPay v122 (View.readAt (Elt F) arg4.view (Rect.unit (s := S128x2560) (k3_off1 k) S32x2560.size (k3_off1_inb k)).toLoadRect X)⟩] := by
  unfold tripL_k3_t1 trip_k3_t1
  dsimp only
  sl_unfold_run_names
  rfl

/-- Every piece written before trip `n` is some trip's piece. -/
theorem mem_pb (c : Dev nD) (i : grid3.Coords) (arg1 : Memref sig .tc .vmem S128x1024 .f32) (harg1 : arg1.IsWhole) (arg2 : Memref sig .tc .vmem S20x1024x128 .f32) (harg2 : arg2.IsWhole) (arg3 : Memref sig .tc .vmem S128x128 .f32) (harg3 : arg3.IsWhole) (arg4 : Memref sig .tc .vmem S128x2560 .f32) (harg4 : arg4.IsWhole)
    (v122 : Vec F S128x2560 .f32) (X : BufTy.Contents (Elt F) arg4.view.ty) :
    ∀ n : Nat, n ≤ k3_t1_loop.trips → ∀ p ∈ pb_k3_t1 (F := F) Variants.none c none i arg1 harg1 arg2 harg2 arg3 harg3 arg4 harg4 v122 X n,
      ∃ k : Fin k3_t1_loop.trips, p ∈ tripL_k3_t1 (F := F) Variants.none c none i arg1 harg1 arg2 harg2 arg3 harg3 arg4 harg4 v122 X k
  | 0, _, p, hp => by rw [pb_k3_t1.eq_1] at hp; exact absurd hp (List.not_mem_nil)
  | n + 1, hn, p, hp => by
    have h := pb_k3_t1_succ (F := F) Variants.none c none i arg1 harg1 arg2 harg2 arg3 harg3 arg4 harg4 v122 X ⟨n, hn⟩
    rw [show (⟨n, hn⟩ : Fin k3_t1_loop.trips).val + 1 = n + 1 from rfl] at h
    rw [h] at hp
    rcases List.mem_append.mp hp with hp | hp
    · exact ⟨⟨n, hn⟩, hp⟩
    · exact mem_pb c i arg1 harg1 arg2 harg2 arg3 harg3 arg4 harg4 v122 X n (Nat.le_of_succ_le hn) p hp

/-- Row `32k + r` of the block: trip `k` stores rows `32k … 32k+31`. -/
def row (k : Fin k3_t1_loop.trips) (r : Fin 32) : Fin 128 :=
  ⟨32 * k.val + r.val, by have := Nat.lt_of_lt_of_le k.isLt k3_t1_abs.2.1; have := r.isLt; omega⟩

/-- What the body leaves in the output block is `blockFn` of the two input blocks. -/
theorem out3_eq
    (hS : ∀ (c : Dev nD) (arg1 : Memref sig .tc .vmem S128x1024 .f32) (harg1 : arg1.IsWhole) (arg2 : Memref sig .tc .vmem S20x1024x128 .f32) (harg2 : arg2.IsWhole)
        (x0 : Vec Ideal S128x1024 .f32) (x1 : Vec Ideal S20x1024x128 .f32) (j : Fin 128) (k : Fin 20) (l : Fin 128),
        View.canon (kernelRun3_A.sl.HS0_20 (F := Ideal) c arg1 harg1 arg2 harg2 x0 x1) (ix2 j (col k l)) = ∑ h : Fin 1024, x0 (ix2 j h) * x1 (ix3 k h l))
    (c : Dev nD) (i : grid3.Coords) (arg1 : Memref sig .tc .vmem S128x1024 .f32) (harg1 : arg1.IsWhole) (arg2 : Memref sig .tc .vmem S20x1024x128 .f32) (harg2 : arg2.IsWhole) (arg3 : Memref sig .tc .vmem S128x128 .f32) (harg3 : arg3.IsWhole) (arg4 : Memref sig .tc .vmem S128x2560 .f32) (harg4 : arg4.IsWhole)
    (x0 : Vec Ideal S128x1024 .f32) (x1 : Vec Ideal S20x1024x128 .f32) :
    out3_A_2 (F := Ideal) c i arg1 harg1 arg2 harg2 arg3 harg3 arg4 harg4 x0 x1 = blockFn x0 x1 := by
  unfold out3_A_2
  rw [View.read_writes_eq_canon _ _ _ (cover3_A_2 c i arg1 harg1 arg2 harg2 arg3 harg3 arg4 harg4 x0 x1)]
  funext y
  refine View.canon_apply_of_pieces (blockFn x0 x1) _ ?_ y (cover3_A_2 c i arg1 harg1 arg2 harg2 arg3 harg3 arg4 harg4 x0 x1 y)
  unfold kernelRun3_A
  dsimp only
  intro p hp
  obtain ⟨k, hk⟩ := mem_pb c i arg1 harg1 arg2 harg2 arg3 harg3 arg4 harg4 _ _ _ (le_refl _) p hp
  rw [tripL_eq] at hk
  obtain rfl := List.mem_singleton.mp hk
  intro x
  dsimp only at x ⊢
  obtain ⟨r, l, rfl⟩ : ∃ (r : Fin 32) (l : Fin 128), x = ix2 r l := ⟨x 0, x 1, eq_ix2 x⟩
  rw [tripPay_apply]
  have hemb : (Rect.unit (s := S128x128) (k3_off2 k) S32x128.size (k3_off2_inb k)).emb (ix2 r l) = ix2 (row k r) l := by
    funext a
    apply Fin.ext
    match a with
    | ⟨0, _⟩ => simp only [Rect.emb_apply, Rect.off_unit, Rect.stride_unit, Nat.one_mul, k3_off2_eq]; rfl
    | ⟨1, _⟩ => simp only [Rect.emb_apply, Rect.off_unit, Rect.stride_unit, Nat.one_mul, k3_off2_eq]; show 0 + l.val = l.val; omega
  rw [hemb, blockFn_apply]
  have h128 : ∀ q : Fin 2560, View.readAt (Elt Ideal) arg4.view (Rect.unit (s := S128x2560) (k3_off1 k) S32x2560.size (k3_off1_inb k)).toLoadRect
      (arg4.view.writes (Elt Ideal) arg4.view.junk (kernelRun3_A.sl.HS0_20 (F := Ideal) c arg1 harg1 arg2 harg2 x0 x1)) (ix2 r q)
        = View.canon (kernelRun3_A.sl.HS0_20 (F := Ideal) c arg1 harg1 arg2 harg2 x0 x1) (ix2 (row k r) q) := by
    intro q
    rw [View.readAt_writes_junk_eq_canon]
    refine congrArg _ (funext fun a => Fin.ext ?_)
    match a with
    | ⟨0, _⟩ => simp only [LoadRect.idx_apply, Rect.emb_apply, Rect.off_unit, Rect.stride_unit, Nat.one_mul, k3_off1_eq]; rfl
    | ⟨1, _⟩ => simp only [LoadRect.idx_apply, Rect.emb_apply, Rect.off_unit, Rect.stride_unit, Nat.one_mul, k3_off1_eq]; show 0 + q.val = q.val; omega
  have h122 : ∀ (j : Fin 128) (q : Fin 2560), kernelRun3_A.sl.v122 (F := Ideal) c arg1 harg1 arg2 harg2 arg4 x0 x1 (ix2 j q)
        = View.canon (kernelRun3_A.sl.HS0_20 (F := Ideal) c arg1 harg1 arg2 harg2 x0 x1) (ix2 j q) := by
    intro j q
    unfold kernelRun3_A.sl.v122
    rw [View.readCov_eq_canon']
    refine congrArg _ (funext fun a => Fin.ext ?_)
    match a with
    | ⟨0, _⟩ => simp only [LoadRect.idx_apply, Rect.emb_apply, Rect.off_unit, Rect.stride_unit, Nat.one_mul]; show 0 + j.val = j.val; omega
    | ⟨1, _⟩ => simp only [LoadRect.idx_apply, Rect.emb_apply, Rect.off_unit, Rect.stride_unit, Nat.one_mul]; show 0 + q.val = q.val; omega
  simp only [h128, h122, hS]
  rfl

end Cert.KernelIdeal.MbdBlock

end
-- ==== Proof.ScratchValue.lean ====
/-
  The [128, 2560] buffer the minibatch-discrimination kernel fills first: twenty stores of 128-column bands, band `k`
  holding the plain product `H · T[k]` of the [128, 1024] block `H` with slab `k` of the [20, 1024, 128] block `T`
  (a matrix product into a zero accumulator). Read at row `j`, column `128·k + l`, what the stores leave is
  `∑ h, H[j, h] · T[k, h, l]`.

  One lemma reads a band at an index for a variable slab number (`band_apply`: the whole load of `H`, the load of the
  slab, its cast from [1, 1024, 128] to [1024, 128], the product's contraction sum); one lemma places a band's
  rectangle in the buffer (`piece_ok`: column `128·k + b` has quotient `k` and remainder `b`); the twenty stores are
  twenty instances, and they tile the buffer, so their overlay is the function `scratchFn` everywhere.
-/
import proofs.«107311_j24532853195160_2_alg».proof.Proof.Gen.KernelIdeal.Frame
import proofs.«107311_j24532853195160_2_alg».proof.Proof.Cols
import proofs.«107311_j24532853195160_2_alg».proof.Proof.LibPlainProduct
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section
namespace Cert.KernelIdeal.ScratchValue
open Idealize.ShloMosaic Idealize.ShloMosaic.TcCoe Idealize.ShloMosaic.Tactic Idealize.ShloMosaic.ValueIdx
open Cert.KernelIdeal.Gen

variable (c : Dev nD) (arg1 : Memref sig .tc .vmem S128x1024 .f32) (harg1 : arg1.IsWhole)
  (arg2 : Memref sig .tc .vmem S20x1024x128 .f32) (harg2 : arg2.IsWhole)
  (x0 : Vec Ideal S128x1024 .f32) (x1 : Vec Ideal S20x1024x128 .f32)

theorem hz2 : (![0, 0] : Fin 2 → Nat) = fun _ => 0 := funext fun a => by fin_cases a <;> rfl

/-- The whole load of the first block, cast to its own shape, is the block. -/
theorem load_lhs (inb : ∀ a, (![0, 0] : Fin 2 → Nat) a + S128x1024.size a ≤ S128x1024.size a)
    (hc : S128x1024.ShapeCasts S128x1024) :
    shapeCast S128x1024 (View.readAt (Elt Ideal) arg1.view (Rect.unit (s := S128x1024) ![0, 0] S128x1024.size inb).toLoadRect (harg1.unread x0)) hc = x0 := by
  refine (shapeCast_self _ _).trans ?_
  rw [View.readAt_eq_ld, harg1.read_unread]
  exact View.ld_unit_zero (S := S128x1024) hz2 _ _

/-- Slab `kn` of the second block, as a [1024, 128] matrix, at `(h, b)`. -/
theorem load_rhs (kn : Nat) (hk : kn < 20)
    (inb : ∀ a, (![kn, 0, 0] : Fin 3 → Nat) a + S1x1024x128.size a ≤ S20x1024x128.size a)
    (hc : S1x1024x128.ShapeCasts S1024x128) (h : Fin 1024) (b : Fin 128) :
    shapeCast S1024x128 (View.readAt (Elt Ideal) arg2.view (Rect.unit (s := S20x1024x128) ![kn, 0, 0] S1x1024x128.size inb).toLoadRect (harg2.unread x1)) hc (ix2 h b)
      = x1 (ix3 ⟨kn, hk⟩ h b) := by
  set_option maxHeartbeats 400000 in
  rw [shapeCast_apply _ _ (ix2 h b) (ix3 (0 : Fin 1) h b) (by rw [Shape.rowMajor_val_two, Shape.rowMajor_val_three]; simp)]
  rw [View.readAt_eq_ld, harg2.read_unread]
  show x1 _ = x1 _
  congr 1
  funext d
  apply Fin.ext
  match d with
  | ⟨0, _⟩ => show kn + 1 * 0 = kn; omega
  | ⟨1, _⟩ => show 0 + 1 * h.val = h.val; omega
  | ⟨2, _⟩ => show 0 + 1 * b.val = b.val; omega

/-- The contents the twenty stores leave in the [128, 2560] buffer: column `q` of row `i` is entry `q % 128` of row `i`
    of the product of the first block with slab `q / 128` of the second. -/
def scratchFn (x0 : Vec Ideal S128x1024 .f32) (x1 : Vec Ideal S20x1024x128 .f32) : S128x2560.Idx → EReal :=
  fun i => ∑ h : Fin 1024, x0 (ix2 (n0 := 128) (i 0) h)
    * x1 (ix3 (n0 := 20) ⟨(i 1).val / 128, by have := idx2_lt1 i; omega⟩ h (n2 := 128) ⟨(i 1).val % 128, Nat.mod_lt _ (by norm_num)⟩)

/-- `scratchFn` at row `a`, column `128·k + b`. -/
theorem scratchFn_eq (i : S128x2560.Idx) (a : Fin 128) (k : Fin 20) (b : Fin 128)
    (h0 : (i 0).val = a.val) (h1 : (i 1).val = 128 * k.val + b.val) :
    scratchFn x0 x1 i = ∑ h : Fin 1024, x0 (ix2 a h) * x1 (ix3 k h b) := by
  unfold scratchFn
  have e0 : (i 0 : Fin 128) = a := Fin.ext h0
  have hb := b.isLt
  have e1 : (⟨(i 1).val / 128, by have := idx2_lt1 i; omega⟩ : Fin 20) = k := Fin.ext (by show (i 1).val / 128 = k.val; omega)
  have e2 : (⟨(i 1).val % 128, Nat.mod_lt _ (by norm_num)⟩ : Fin 128) = b := Fin.ext (by show (i 1).val % 128 = b.val; omega)
  rw [e0, e1, e2]

/-- One band: the product of the first block with slab `kn` of the second into a zero accumulator, at `(a, b)`. -/
theorem band_apply (kn : Nat) (hk : kn < 20)
    (inb1 : ∀ a, (![0, 0] : Fin 2 → Nat) a + S128x1024.size a ≤ S128x1024.size a) (hc1 : S128x1024.ShapeCasts S128x1024)
    (inb2 : ∀ a, (![kn, 0, 0] : Fin 3 → Nat) a + S1x1024x128.size a ≤ S20x1024x128.size a)
    (hc2 : S1x1024x128.ShapeCasts S1024x128) (hc3 : S128x128.ShapeCasts S128x128) (a b : Fin 128) :
    shapeCast S128x128 (matmul (F := Ideal) (φ₁ := .f32) (φ₂ := .f32) dot_S128x1024_S1024x128_S128x128_1_0_0_1_n_n (some .fp32)
        (shapeCast S128x1024 (View.readAt (Elt Ideal) arg1.view (Rect.unit (s := S128x1024) ![0, 0] S128x1024.size inb1).toLoadRect (harg1.unread x0)) hc1)
        (shapeCast S1024x128 (View.readAt (Elt Ideal) arg2.view (Rect.unit (s := S20x1024x128) ![kn, 0, 0] S1x1024x128.size inb2).toLoadRect (harg2.unread x1)) hc2)
        (constant S128x128 .f32 0x00000000#32)) hc3 (ix2 a b)
      = ∑ h : Fin 1024, x0 (ix2 a h) * x1 (ix3 ⟨kn, hk⟩ h b) := by
  refine (congrFun (shapeCast_self _ _) _).trans ?_
  rw [load_lhs arg1 harg1 x0]
  refine (Cert.PlainProduct.matmul_plain_apply _ rfl _ _ _ a b).trans ?_
  exact Finset.sum_congr rfl fun h _ => by rw [load_rhs arg2 harg2 x1 kn hk]

/-- A store of such a band at columns `o = 128·kn …` agrees with `scratchFn` on its rectangle. -/
theorem piece_ok (kn : Nat) (hk : kn < 20) (o : Nat) (ho : o = 128 * kn)
    (inb : ∀ a, (![0, o] : Fin 2 → Nat) a + S128x128.size a ≤ S128x2560.size a)
    (w : S128x128.Idx → EReal) (hw : ∀ a b : Fin 128, w (ix2 a b) = ∑ h : Fin 1024, x0 (ix2 a h) * x1 (ix3 ⟨kn, hk⟩ h b)) :
    ∀ x : (Rect.unit (s := S128x2560) ![0, o] S128x128.size inb).shape.Idx,
      w x = scratchFn x0 x1 ((Rect.unit (s := S128x2560) ![0, o] S128x128.size inb).emb x) := by
  intro (x : S128x128.Idx)
  obtain ⟨a, b, rfl⟩ : ∃ (a b : Fin 128), x = ix2 a b := ⟨x 0, x 1, eq_ix2 x⟩
  rw [hw, scratchFn_eq x0 x1 _ a ⟨kn, hk⟩ b]
  · show 0 + 1 * a.val = a.val; omega
  · show o + 1 * b.val = 128 * kn + b.val; omega

/-- Every stored piece agrees with `scratchFn` on its rectangle. -/
theorem pieces_scratch : ∀ p ∈ kernelRun3_A.sl.HS0_20 (F := Ideal) c arg1 harg1 arg2 harg2 x0 x1,
    ∀ x : p.1.shape.Idx, p.2 x = scratchFn x0 x1 (p.1.emb x) := by
  unfold kernelRun3_A.sl.HS0_20
  simp only [List.forall_mem_cons]
  refine ⟨?_, ?_, ?_, ?_, ?_, ?_, ?_, ?_, ?_, ?_, ?_, ?_, ?_, ?_, ?_, ?_, ?_, ?_, ?_, ?_, ?_⟩
  · exact piece_ok x0 x1 19 (by norm_num) 2432 rfl _ _ (fun a b => band_apply arg1 harg1 arg2 harg2 x0 x1 19 (by norm_num) _ _ _ _ _ a b)
  · exact piece_ok x0 x1 18 (by norm_num) 2304 rfl _ _ (fun a b => band_apply arg1 harg1 arg2 harg2 x0 x1 18 (by norm_num) _ _ _ _ _ a b)
  · exact piece_ok x0 x1 17 (by norm_num) 2176 rfl _ _ (fun a b => band_apply arg1 harg1 arg2 harg2 x0 x1 17 (by norm_num) _ _ _ _ _ a b)
  · exact piece_ok x0 x1 16 (by norm_num) 2048 rfl _ _ (fun a b => band_apply arg1 harg1 arg2 harg2 x0 x1 16 (by norm_num) _ _ _ _ _ a b)
  · exact piece_ok x0 x1 15 (by norm_num) 1920 rfl _ _ (fun a b => band_apply arg1 harg1 arg2 harg2 x0 x1 15 (by norm_num) _ _ _ _ _ a b)
  · exact piece_ok x0 x1 14 (by norm_num) 1792 rfl _ _ (fun a b => band_apply arg1 harg1 arg2 harg2 x0 x1 14 (by norm_num) _ _ _ _ _ a b)
  · exact piece_ok x0 x1 13 (by norm_num) 1664 rfl _ _ (fun a b => band_apply arg1 harg1 arg2 harg2 x0 x1 13 (by norm_num) _ _ _ _ _ a b)
  · exact piece_ok x0 x1 12 (by norm_num) 1536 rfl _ _ (fun a b => band_apply arg1 harg1 arg2 harg2 x0 x1 12 (by norm_num) _ _ _ _ _ a b)
  · exact piece_ok x0 x1 11 (by norm_num) 1408 rfl _ _ (fun a b => band_apply arg1 harg1 arg2 harg2 x0 x1 11 (by norm_num) _ _ _ _ _ a b)
  · exact piece_ok x0 x1 10 (by norm_num) 1280 rfl _ _ (fun a b => band_apply arg1 harg1 arg2 harg2 x0 x1 10 (by norm_num) _ _ _ _ _ a b)
  · exact piece_ok x0 x1 9 (by norm_num) 1152 rfl _ _ (fun a b => band_apply arg1 harg1 arg2 harg2 x0 x1 9 (by norm_num) _ _ _ _ _ a b)
  · exact piece_ok x0 x1 8 (by norm_num) 1024 rfl _ _ (fun a b => band_apply arg1 harg1 arg2 harg2 x0 x1 8 (by norm_num) _ _ _ _ _ a b)
  · exact piece_ok x0 x1 7 (by norm_num) 896 rfl _ _ (fun a b => band_apply arg1 harg1 arg2 harg2 x0 x1 7 (by norm_num) _ _ _ _ _ a b)
  · exact piece_ok x0 x1 6 (by norm_num) 768 rfl _ _ (fun a b => band_apply arg1 harg1 arg2 harg2 x0 x1 6 (by norm_num) _ _ _ _ _ a b)
  · exact piece_ok x0 x1 5 (by norm_num) 640 rfl _ _ (fun a b => band_apply arg1 harg1 arg2 harg2 x0 x1 5 (by norm_num) _ _ _ _ _ a b)
  · exact piece_ok x0 x1 4 (by norm_num) 512 rfl _ _ (fun a b => band_apply arg1 harg1 arg2 harg2 x0 x1 4 (by norm_num) _ _ _ _ _ a b)
  · exact piece_ok x0 x1 3 (by norm_num) 384 rfl _ _ (fun a b => band_apply arg1 harg1 arg2 harg2 x0 x1 3 (by norm_num) _ _ _ _ _ a b)
  · exact piece_ok x0 x1 2 (by norm_num) 256 rfl _ _ (fun a b => band_apply arg1 harg1 arg2 harg2 x0 x1 2 (by norm_num) _ _ _ _ _ a b)
  · exact piece_ok x0 x1 1 (by norm_num) 128 rfl _ _ (fun a b => band_apply arg1 harg1 arg2 harg2 x0 x1 1 (by norm_num) _ _ _ _ _ a b)
  · exact piece_ok x0 x1 0 (by norm_num) 0 rfl _ _ (fun a b => band_apply arg1 harg1 arg2 harg2 x0 x1 0 (by norm_num) _ _ _ _ _ a b)
  · intro p hp; exact absurd hp List.not_mem_nil

/-- The twenty stores tile the buffer in [128, 128] blocks, so they cover it. -/
theorem cover_scratch (y : S128x2560.Idx) :
    ∃ p ∈ kernelRun3_A.sl.HS0_20 (F := Ideal) c arg1 harg1 arg2 harg2 x0 x1, y ∈ p.1.set :=
  View.cover_of_tiledL (kernelRun3_A.sl.HS0_20 (F := Ideal) c arg1 harg1 arg2 harg2 x0 x1) S128x128.size (by sl_kernel_rfl) y

/-- What the stores leave, as a function: `scratchFn`. -/
theorem canon_scratch :
    View.canon (kernelRun3_A.sl.HS0_20 (F := Ideal) c arg1 harg1 arg2 harg2 x0 x1) = scratchFn x0 x1 :=
  funext fun y => View.canon_apply_of_pieces (Val := Elt Ideal) (scratchFn x0 x1) _
    (pieces_scratch c arg1 harg1 arg2 harg2 x0 x1) y (cover_scratch c arg1 harg1 arg2 harg2 x0 x1 y)

/-- Row `j`, column `128·k + l` of what the stores leave: entry `(j, l)` of the first block times slab `k` of the second. -/
theorem scratch_apply (j : Fin 128) (k : Fin 20) (l : Fin 128) :
    View.canon (kernelRun3_A.sl.HS0_20 (F := Ideal) c arg1 harg1 arg2 harg2 x0 x1) (ix2 j (Cert.Mbd.col k l))
      = ∑ h : Fin 1024, x0 (ix2 j h) * x1 (ix3 k h l) := by
  rw [canon_scratch]
  exact scratchFn_eq x0 x1 _ j k l rfl (Cert.Mbd.col_val k l)

end Cert.KernelIdeal.ScratchValue

end
-- ==== Proof.MbdFinal.lean ====
/-
  Region 3 of the kernel program, from blocks to the array.

  At grid point `t` the region reads the whole matrix `H` of hidden activations `[128, 1024]` and lane block `t` of
  the transposed projection tensor `T` `[20, 1024, 512]` (lanes `128·t … 128·t + 127` of the last axis), and writes
  lane block `t` of the feature matrix `[128, 512]`. Given that the body leaves in its output block the block
  function of its two input blocks, entry `(b, o)` of the feature matrix after the region is
  `∑ j, exp (-(∑ k, |Q b k o - Q j k o|)) - 1` with `Q b k o = ∑ h, H[b, h] · T[k, h, o]`: the entry depends on lane
  `o` of `T` only, which lies in the block of point `o / 128`, and the four blocks tile the array.
-/
import proofs.«107311_j24532853195160_2_alg».proof.Proof.Gen.KernelIdeal.Frame
import proofs.«107311_j24532853195160_2_alg».proof.Proof.BlockSpec
import Idealize.ShloMosaic.Lib.Pipeline.Value
import Idealize.ShloMosaic.Lib.ValueIdx

set_option maxRecDepth 16384

noncomputable section

namespace Cert.KernelIdeal.MbdFinal

open Idealize.ShloMosaic Idealize.ShloMosaic.ValueIdx Idealize.ShloMosaic.TcCoe
open Idealize.ShloMosaic.Pipeline (Dat)
open Cert.KernelIdeal Cert.KernelIdeal.Gen

/-! ## The feature matrix as one function of the two arrays -/

/-- The projected entry `Q[b, k, o] = ∑ h, H[b, h] · T[k, h, o]`. -/
def Q (H : S128x1024.Idx → EReal) (T : S20x1024x512.Idx → EReal) (b : Fin 128) (k : Fin 20) (o : Fin 512) : EReal :=
  ∑ h : Fin 1024, H (ix2 b h) * T (ix3 k h o)

/-- The feature at `(b, o)`: `∑ j, exp (-(∑ k, |Q b k o - Q j k o|)) - 1`, the absolute value spelt `max x (-x)`. -/
def featAt (H : S128x1024.Idx → EReal) (T : S20x1024x512.Idx → EReal) (b : Fin 128) (o : Fin 512) : EReal :=
  (∑ j : Fin 128, Ideal.exp (-(∑ k : Fin 20, max (Q H T b k o - Q H T j k o) (-(Q H T b k o - Q H T j k o)))))
    - Ideal.ofBits .f32 0x3F800000#32

/-- The feature matrix as an array. -/
def featFn (H : S128x1024.Idx → EReal) (T : S20x1024x512.Idx → EReal) : S128x512.Idx → EReal :=
  fun i => featAt H T (i 0) (i 1)

theorem featFn_apply (H : S128x1024.Idx → EReal) (T : S20x1024x512.Idx → EReal) (b : Fin 128) (o : Fin 512) :
    featFn H T (ix2 b o) = featAt H T b o := rfl

/-- One block of the feature matrix: the block function of blocks that are the whole of `H` and, on lane `l`, lane
    `O` of `T`, is at `(b, l)` the feature at `(b, O)` — every band entry on lane `l` is the projected entry on lane `O`. -/
theorem block_apply (H : S128x1024.Idx → EReal) (T : S20x1024x512.Idx → EReal)
    (x0 : Vec Ideal S128x1024 .f32) (x1 : Vec Ideal S20x1024x128 .f32) (l : Fin 128) (O : Fin 512)
    (h0 : ∀ (b : Fin 128) (h : Fin 1024), x0 (ix2 b h) = H (ix2 b h))
    (h1 : ∀ (k : Fin 20) (h : Fin 1024), x1 (ix3 k h l) = T (ix3 k h O)) (b : Fin 128) :
    MbdBlock.blockFn x0 x1 (ix2 b l) = featAt H T b O := by
  have hband : ∀ (b' : Fin 128) (k : Fin 20), MbdBlock.band x0 x1 b' k l = Q H T b' k O := fun b' k => by
    unfold MbdBlock.band Q
    exact Finset.sum_congr rfl fun h _ => by rw [h0 b' h, h1 k h]
  rw [MbdBlock.blockFn_apply]
  unfold MbdBlock.blockAt featAt
  simp only [hband]

/-! ## Region 3 -/

section Region3

variable (V : (c : Dev nD) → (b : Ref sig .tc) → Buf (Elt Ideal) ((c : Thread nD τ).loc b))

/-- The hidden activations and the transposed projection tensor as region 3 finds them. -/
abbrev H3 (c : Dev nD) : S128x1024.Idx → EReal := V c (Pipeline.arrRef spec3 0)
abbrev T3 (c : Dev nD) : S20x1024x512.Idx → EReal := V c (Pipeline.arrRef spec3 1)

/-- The whole feature matrix of those arrays. -/
abbrev F3 (c : Dev nD) : S128x512.Idx → EReal := featFn (H3 V c) (T3 V c)

/-- The block indices over the grid: `H` is one block; at point `t` the tensor's window is on lane block `t` and the
    output's on column block `t`. -/
theorem idx_facts3 : ∀ t : Fin cfg3.N, win3_0.index t (0 : Fin 2) = 0 ∧ win3_0.index t (1 : Fin 2) = 0
    ∧ win3_1.index t (0 : Fin 3) = 0 ∧ win3_1.index t (1 : Fin 3) = 0 ∧ win3_1.index t (2 : Fin 3) = t.val
    ∧ win3_2.index t (0 : Fin 2) = 0 ∧ win3_2.index t (1 : Fin 2) = t.val :=
  (by decide +kernel : ∀ t : Fin grid3.N, _)

-- The body leaves in its output block the block function of its two input blocks (proved where the body is read).
variable (hout : ∀ (c : Dev nD) (i : grid3.Coords) (arg1 : Memref sig .tc .vmem S128x1024 .f32) (harg1 : arg1.IsWhole)
    (arg2 : Memref sig .tc .vmem S20x1024x128 .f32) (harg2 : arg2.IsWhole) (arg3 : Memref sig .tc .vmem S128x128 .f32)
    (harg3 : arg3.IsWhole) (arg4 : Memref sig .tc .vmem S128x2560 .f32) (harg4 : arg4.IsWhole)
    (x0 : Vec Ideal S128x1024 .f32) (x1 : Vec Ideal S20x1024x128 .f32),
    Gen.out3_A_2 (F := Ideal) c i arg1 harg1 arg2 harg2 arg3 harg3 arg4 harg4 x0 x1 = MbdBlock.blockFn x0 x1)

include hout in
set_option maxHeartbeats 400000 in
/-- What point `t` writes back is block `t` of the feature matrix. -/
theorem flushed3_eq (c : Dev nD) (t : Fin cfg3.N) :
    (Gen.dat3 (F := Ideal) V c).flushed 2 t = ((cfg3.win 2).blk t).view.read (Elt Ideal) (F3 V c) := by
  show (cfg3.win 2).cut (grid3.coords t) ((Gen.dat3 (F := Ideal) V c).after 2 t) = _
  rw [Gen.after3_2]
  unfold Gen.outsAt3
  rw [hout c (grid3.coords t) (Gen.ms3_0 t) (Gen.hs3_0 t) (Gen.ms3_1 t) (Gen.hs3_1 t) (Gen.ms3_2 t) (Gen.hs3_2 t)
    Gen.scM3_0 (Memref.isWhole_whole _) (Gen.iblk3 V c 0 t) (Gen.iblk3 V c 1 t)]
  obtain ⟨e00, e01, e10, e11, e12, e20, e21⟩ := idx_facts3 t
  have ht : t.val < 4 := t.isLt
  funext j
  obtain ⟨b, l, rfl⟩ : ∃ (b : Fin 128) (l : Fin 128), j = ix2 b l := ⟨j 0, j 1, eq_ix2 (n0 := 128) (n1 := 128) j⟩
  show MbdBlock.blockFn (Gen.iblk3 V c 0 t) (Gen.iblk3 V c 1 t) (ix2 b l)
    = F3 V c (((cfg3.win 2).blk t).view.emb (ix2 b l))
  have hl : l.val < 128 := l.isLt
  have hemb : ((cfg3.win 2).blk t).view.emb (ix2 b l) = (ix2 b (⟨t.val * 128 + l.val, by omega⟩ : Fin 512) : S128x512.Idx) := by
    funext r; apply Fin.ext
    match r with
    | ⟨0, _⟩ => show win3_2.index t (0 : Fin 2) * 128 + 1 * b.val = b.val; omega
    | ⟨1, _⟩ => show win3_2.index t (1 : Fin 2) * 128 + 1 * l.val = t.val * 128 + l.val; omega
  rw [hemb]
  show MbdBlock.blockFn (Gen.iblk3 V c 0 t) (Gen.iblk3 V c 1 t) (ix2 b l)
    = featAt (H3 V c) (T3 V c) b ⟨t.val * 128 + l.val, by omega⟩
  refine block_apply (H3 V c) (T3 V c) (Gen.iblk3 V c 0 t) (Gen.iblk3 V c 1 t) l ⟨t.val * 128 + l.val, by omega⟩
    (fun b' h => ?_) (fun k h => ?_) b
  · show V c (Pipeline.arrRef spec3 0) (((cfg3.win 0).blk t).view.emb (ix2 b' h)) = V c (Pipeline.arrRef spec3 0) (ix2 b' h)
    refine congrArg _ (funext fun r => Fin.ext ?_)
    match r with
    | ⟨0, _⟩ => show win3_0.index t (0 : Fin 2) * 128 + 1 * b'.val = b'.val; omega
    | ⟨1, _⟩ => show win3_0.index t (1 : Fin 2) * 1024 + 1 * h.val = h.val; omega
  · show V c (Pipeline.arrRef spec3 1) (((cfg3.win 1).blk t).view.emb (ix3 k h l))
      = V c (Pipeline.arrRef spec3 1) (ix3 k h ⟨t.val * 128 + l.val, by omega⟩)
    refine congrArg _ (funext fun r => Fin.ext ?_)
    match r with
    | ⟨0, _⟩ => show win3_1.index t (0 : Fin 3) * 20 + 1 * k.val = k.val; omega
    | ⟨1, _⟩ => show win3_1.index t (1 : Fin 3) * 1024 + 1 * h.val = h.val; omega
    | ⟨2, _⟩ => show win3_1.index t (2 : Fin 3) * 128 + 1 * l.val = t.val * 128 + l.val; omega

/-- An entry of the output array is in point `t`'s block iff each coordinate is in the block's range on its axis. -/
theorem mem_blk3 (t : Fin cfg3.N) (i : S128x512.Idx) :
    i ∈ ((cfg3.win 2).blk t).view.set ↔ ∀ a : Fin 2, win3_2.index t a * S128x128.size a ≤ (i a).val
      ∧ (i a).val < win3_2.index t a * S128x128.size a + S128x128.size a := by
  show i ∈ ((View.whole main_v8).slice (win3_2.rect t)).set ↔ _
  rw [View.set_slice_whole, Rect.mem_set_unit]
  exact Iff.rfl

set_option maxHeartbeats 400000 in
/-- Column `o` of the output lies in the block of point `o / 128`: the blocks tile the array. -/
theorem cover3 (i : S128x512.Idx) :
    ∃ t : Fin cfg3.N, (cfg3.win 2).flush t = true ∧ i ∈ ((cfg3.win 2).blk t).view.set := by
  have h0 : (i 0).val < 128 := (i 0).isLt
  have h1 : (i 1).val < 512 := (i 1).isLt
  have hN : cfg3.N = 4 := N_3
  let t : Fin cfg3.N := ⟨(i 1).val / 128, by rw [hN]; omega⟩
  have htv : t.val = (i 1).val / 128 := rfl
  obtain ⟨-, -, -, -, -, e20, e21⟩ := idx_facts3 t
  refine ⟨t, flush3_2 t, ?_⟩
  rw [mem_blk3]
  intro a
  match a with
  | ⟨0, _⟩ => show win3_2.index t (0 : Fin 2) * 128 ≤ (i 0).val ∧ (i 0).val < win3_2.index t (0 : Fin 2) * 128 + 128; omega
  | ⟨1, _⟩ => show win3_2.index t (1 : Fin 2) * 128 ≤ (i 1).val ∧ (i 1).val < win3_2.index t (1 : Fin 2) * 128 + 128; omega

include hout in
/-- After region 3 its output array holds the whole feature matrix of the arrays the region found. -/
theorem final3_array (c : Dev nD) : (Gen.dat3 (F := Ideal) V c).arrAt 2 cfg3.N = F3 V c :=
  (Gen.dat3 (F := Ideal) V c).arrAt_eq_of_cover 2 (F3 V c) (fun t _ => flushed3_eq V hout c t) cover3

include hout in
/-- Entry by entry. -/
theorem final3 (c : Dev nD) (b : Fin 128) (o : Fin 512) :
    (Gen.dat3 (F := Ideal) V c).arrAt 2 cfg3.N (ix2 b o)
      = (∑ j : Fin 128, Ideal.exp (-(∑ k : Fin 20,
          max (Q (H3 V c) (T3 V c) b k o - Q (H3 V c) (T3 V c) j k o) (-(Q (H3 V c) (T3 V c) b k o - Q (H3 V c) (T3 V c) j k o)))))
        - Ideal.ofBits .f32 0x3F800000#32 := by
  rw [final3_array V hout]; rfl

end Region3

end Cert.KernelIdeal.MbdFinal

end
-- ==== Proof.KernelValue.lean ====
/-
  The idealized kernel program's result as a function of its launch arrays.

  The last region's two input arrays are the three dense layers of the arguments (`hid`) and the transposed tensor
  `T₂[k, h, o] = T[h, o, k]`, so the band sums `∑ h, H[b, h] · T₂[k, h, o]` it is read through are the projections
  `M[b, o, k]` and its output array is the discrimination feature of `hid` and `T`. The host tail then joins the two.
-/
import proofs.«107311_j24532853195160_2_alg».proof.Proof.KernelGlue
import proofs.«107311_j24532853195160_2_alg».proof.Proof.MbdBlock
import proofs.«107311_j24532853195160_2_alg».proof.Proof.ScratchValue
import proofs.«107311_j24532853195160_2_alg».proof.Proof.MbdFinal
import proofs.«107311_j24532853195160_2_alg».proof.Proof.Spec

noncomputable section

namespace Cert.KernelIdeal.KernelValue

open Cert.KernelIdeal Cert.KernelIdeal.Gen Cert.Mbd
open Idealize.ShloMosaic Idealize.ShloMosaic.TcCoe Idealize.ShloMosaic.ValueIdx Idealize.SL.Sem

variable (m : (ℓ : Loc nD τ sig) → Buf (Elt Ideal) ℓ) (ρ : Dev nD → PrngReg)

/-- The three dense layers of the launch arrays. -/
abbrev hid (c : Dev nD) : S128x1024.Idx → EReal :=
  Cert.Mbd.hidden (m ((c : Thread nD τ).loc main_arg0)) (m ((c : Thread nD τ).loc main_arg1)) (fun q => m ((c : Thread nD τ).loc main_arg2) (ix1 q))
    (m ((c : Thread nD τ).loc main_arg3)) (fun q => m ((c : Thread nD τ).loc main_arg4) (ix1 q))
    (m ((c : Thread nD τ).loc main_arg5)) (fun q => m ((c : Thread nD τ).loc main_arg6) (ix1 q))

/-- At every grid point the last region's body leaves the block function of its two input blocks. -/
theorem out3 : ∀ (c : Dev nD) (i : grid3.Coords) (arg1 : Memref sig .tc .vmem S128x1024 .f32) (harg1 : arg1.IsWhole) (arg2 : Memref sig .tc .vmem S20x1024x128 .f32) (harg2 : arg2.IsWhole) (arg3 : Memref sig .tc .vmem S128x128 .f32) (harg3 : arg3.IsWhole) (arg4 : Memref sig .tc .vmem S128x2560 .f32) (harg4 : arg4.IsWhole) (x0 : Vec Ideal S128x1024 .f32) (x1 : Vec Ideal S20x1024x128 .f32),
    out3_A_2 (F := Ideal) c i arg1 harg1 arg2 harg2 arg3 harg3 arg4 harg4 x0 x1 = MbdBlock.blockFn x0 x1 :=
  MbdBlock.out3_eq ScratchValue.scratch_apply

/-- The last region's output array is the discrimination feature of the three layers and `T`. -/
theorem feat_kernel (c : Dev nD) :
    W8 m ρ c (Proc.devRef .tc main_v8) = Cert.Mbd.feat (hid m c) (m ((c : Thread nD τ).loc main_arg7)) := by
  rw [Glue.W8_main_v8]
  funext y
  obtain ⟨b, o, rfl⟩ : ∃ (b : Fin 128) (o : Fin 512), y = ix2 b o := ⟨y 0, y 1, eq_ix2 y⟩
  rw [MbdFinal.final3 (V7 m ρ) out3 c b o, Cert.Mbd.feat_apply]
  unfold Cert.Mbd.featAt Cert.Mbd.dist
  have hH : MbdFinal.H3 (V7 m ρ) c = hid m c := (Glue.V7_main_v6 m ρ c).trans (Glue.hidden_kernel m ρ c)
  have hQ : ∀ (b : Fin 128) (k : Fin 20) (o : Fin 512),
      MbdFinal.Q (MbdFinal.H3 (V7 m ρ) c) (MbdFinal.T3 (V7 m ρ) c) b k o
        = Cert.Mbd.proj (hid m c) (m ((c : Thread nD τ).loc main_arg7)) b o k := by
    intro b k o
    unfold MbdFinal.Q Cert.Mbd.proj
    refine Finset.sum_congr rfl fun h _ => ?_
    rw [hH]
    exact congrArg (hid m c (ix2 b h) * ·) (Glue.V7_main_v7 m ρ c k h o)
  simp only [hQ]

/-- The program's result: the host tail of the three layers and the feature. -/
theorem value (c : Dev nD) :
    W9 m ρ c (Proc.devRef .tc main_v13)
      = addf (F := Ideal) (φ := .f32) (Host.dotGeneral (F := Ideal) (φ₁ := .f32) (φ₂ := .f32) dot_S128x1536_S1536x1_S128x1_1_0_0_1_n_n (some .fp32)
          (concatenate (α := Ideal .f32) S128x1536 1 [⟨S128x1024, hid m c⟩, ⟨S128x512, Cert.Mbd.feat (hid m c) (m ((c : Thread nD τ).loc main_arg7))⟩] concatenates_S128x1024_S128x512_S128x1536_d1)
          (m ((c : Thread nD τ).loc main_arg8)))
        (broadcastInDim S128x1 ![0, 1] bcast_S1x1_S128x1_0_1 (broadcastInDim S1x1 ![1] bcast_S1_S1x1_1 (m ((c : Thread nD τ).loc main_arg9)))) := by
  rw [Glue.tail_eq, Glue.W8_main_v6, Glue.hidden_kernel, feat_kernel]

end Cert.KernelIdeal.KernelValue

end
-- ==== Proof.RefValue.lean ====
/-
  The reference program's value is the specification.

  Each dense layer of the reference is a matrix product, the bias laid along every row, and the leaky rectifier written
  as a comparison with zero, a product with the slope and a selection; read at an entry `(a, q)` this is the
  specification's `denseAt`. The discrimination stages read at `(b, o)` are the specification's `featAt`.
-/
import proofs.«107311_j24532853195160_2_alg».proof.Proof.Gen.ReferenceIdeal.Read
import proofs.«107311_j24532853195160_2_alg».proof.Proof.Spec
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The first layer: entry `(a, q)` is the rectifier of `∑ c, x[a, c] · W1[c, q] + b1[q]`. -/
theorem layer1_eq (x0 : (⟨S128x2048, .f32⟩ : BufTy).Contents (Elt Ideal)) (x1 : (⟨S2048x2048, .f32⟩ : BufTy).Contents (Elt Ideal))
    (x2 : (⟨S2048, .f32⟩ : BufTy).Contents (Elt Ideal)) :
    Read.val_main_v8 (F := Ideal) x0 x1 x2 = Cert.Mbd.dense x0 x1 (fun q => x2 (ix1 q)) := by
  funext j
  obtain ⟨a, q, rfl⟩ : ∃ (a : Fin 128) (q : Fin 2048), j = ix2 a q := ⟨j 0, j 1, eq_ix2 j⟩
  rw [Read.val_main_v8_apply, Read.val_main_v5_apply, Read.val_main_v7_apply, Read.val_main_v3_apply,
    Read.val_main_v0_apply, Read.val_main_v2_apply, Read.val_main_v1_apply, Read.val_main_v4_apply,
    Read.val_main_v6_apply, Read.val_main_cst_apply, Read.val_main_cst_0_apply, Cert.Mbd.dense_apply]
  have el : ∀ k : Fin 2048, Read.lidx_main_v0 (ix2 a q) k = ix2 a k := fun k =>
    funext fun d => Fin.ext (by match d with | ⟨0, _⟩ => rfl | ⟨1, _⟩ => rfl)
  have er : ∀ k : Fin 2048, Read.ridx_main_v0 (ix2 a q) k = ix2 k q := fun k =>
    funext fun d => Fin.ext (by match d with | ⟨0, _⟩ => rfl | ⟨1, _⟩ => rfl)
  have eb : Read.idx_main_v1 (Read.idx_main_v2 (ix2 a q)) = ix1 q :=
    funext fun d => Fin.ext (by match d with | ⟨0, _⟩ => rfl)
  simp only [el, er, eb]
  rfl

/-- The second layer over the first. -/
theorem layer2_eq (x0 : (⟨S128x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1024, .f32⟩ : BufTy).Contents (Elt Ideal)) (x4 : (⟨S1024, .f32⟩ : BufTy).Contents (Elt Ideal)) :
    Read.val_main_v17 (F := Ideal) x0 x1 x2 x3 x4
      = Cert.Mbd.dense (Read.val_main_v8 (F := Ideal) x0 x1 x2) x3 (fun q => x4 (ix1 q)) := by
  funext j
  obtain ⟨a, q, rfl⟩ : ∃ (a : Fin 128) (q : Fin 1024), j = ix2 a q := ⟨j 0, j 1, eq_ix2 j⟩
  rw [Read.val_main_v17_apply, Read.val_main_v14_apply, Read.val_main_v16_apply, Read.val_main_v12_apply,
    Read.val_main_v9_apply, Read.val_main_v11_apply, Read.val_main_v10_apply, Read.val_main_v13_apply,
    Read.val_main_v15_apply, Read.val_main_cst_1_apply, Read.val_main_cst_2_apply, Cert.Mbd.dense_apply]
  generalize Read.val_main_v8 (F := Ideal) x0 x1 x2 = y
  have el : ∀ k : Fin 2048, Read.lidx_main_v9 (ix2 a q) k = ix2 a k := fun k =>
    funext fun d => Fin.ext (by match d with | ⟨0, _⟩ => rfl | ⟨1, _⟩ => rfl)
  have er : ∀ k : Fin 2048, Read.ridx_main_v9 (ix2 a q) k = ix2 k q := fun k =>
    funext fun d => Fin.ext (by match d with | ⟨0, _⟩ => rfl | ⟨1, _⟩ => rfl)
  have eb : Read.idx_main_v10 (Read.idx_main_v11 (ix2 a q)) = ix1 q :=
    funext fun d => Fin.ext (by match d with | ⟨0, _⟩ => rfl)
  simp only [el, er, eb]
  rfl

/-- The third layer over the second. -/
theorem layer3_eq (x0 : (⟨S128x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    Read.val_main_v26 (F := Ideal) x0 x1 x2 x3 x4 x5 x6
      = Cert.Mbd.dense (Read.val_main_v17 (F := Ideal) x0 x1 x2 x3 x4) x5 (fun q => x6 (ix1 q)) := by
  funext j
  obtain ⟨a, q, rfl⟩ : ∃ (a : Fin 128) (q : Fin 1024), j = ix2 a q := ⟨j 0, j 1, eq_ix2 j⟩
  rw [Read.val_main_v26_apply, Read.val_main_v23_apply, Read.val_main_v25_apply, Read.val_main_v21_apply,
    Read.val_main_v18_apply, Read.val_main_v20_apply, Read.val_main_v19_apply, Read.val_main_v22_apply,
    Read.val_main_v24_apply, Read.val_main_cst_3_apply, Read.val_main_cst_4_apply, Cert.Mbd.dense_apply]
  generalize Read.val_main_v17 (F := Ideal) x0 x1 x2 x3 x4 = y
  have el : ∀ k : Fin 1024, Read.lidx_main_v18 (ix2 a q) k = ix2 a k := fun k =>
    funext fun d => Fin.ext (by match d with | ⟨0, _⟩ => rfl | ⟨1, _⟩ => rfl)
  have er : ∀ k : Fin 1024, Read.ridx_main_v18 (ix2 a q) k = ix2 k q := fun k =>
    funext fun d => Fin.ext (by match d with | ⟨0, _⟩ => rfl | ⟨1, _⟩ => rfl)
  have eb : Read.idx_main_v19 (Read.idx_main_v20 (ix2 a q)) = ix1 q :=
    funext fun d => Fin.ext (by match d with | ⟨0, _⟩ => rfl)
  simp only [el, er, eb]
  rfl

/-- The three layers of the reference are the specification's `hidden`. -/
theorem hidden_eq (x0 : (⟨S128x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    Read.val_main_v26 (F := Ideal) x0 x1 x2 x3 x4 x5 x6
      = Cert.Mbd.hidden x0 x1 (fun q => x2 (ix1 q)) x3 (fun q => x4 (ix1 q)) x5 (fun q => x6 (ix1 q)) := by
  rw [layer3_eq, layer2_eq, layer1_eq]
  rfl

/-- Row-major position `o·20 + k` of the flattened pair `(o, k)`. -/
abbrev col (o : Fin 512) (k : Fin 20) : Fin 10240 := ⟨o.val * 20 + k.val, by have := o.isLt; have := k.isLt; omega⟩

/-- The product with the flattened tensor, folded back to `[128, 512, 20]`, at `(b, o, k)`: `∑ h, H[b, h] · T[h, o, k]`. -/
theorem proj_at (x0 : (⟨S128x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x512x20, .f32⟩ : BufTy).Contents (Elt Ideal)) (b : Fin 128) (o : Fin 512) (k : Fin 20) :
    Read.val_main_v29 (F := Ideal) x0 x1 x2 x3 x4 x5 x6 x7 (ix3 b o k) = Cert.Mbd.proj (Read.val_main_v26 (F := Ideal) x0 x1 x2 x3 x4 x5 x6) x7 b o k := by
  have e : Read.idx_main_v29 (ix3 b o k) = ix2 b (col o k) :=
    funext fun d => Fin.ext (by
      have hb := b.isLt; have ho := o.isLt; have hk := k.isLt
      match d with
      | ⟨0, _⟩ => show ((b.val * 512 + o.val) * 20 + k.val) / 10240 = b.val; omega
      | ⟨1, _⟩ => show ((b.val * 512 + o.val) * 20 + k.val) % 10240 = o.val * 20 + k.val; omega)
  rw [Read.val_main_v29_apply, e, Read.val_main_v28_apply]
  unfold Cert.Mbd.proj
  generalize Read.val_main_v26 (F := Ideal) x0 x1 x2 x3 x4 x5 x6 = H
  refine Finset.sum_congr rfl fun h _ => ?_
  have el : Read.lidx_main_v28 (ix2 b (col o k)) h = ix2 b h :=
    funext fun d => Fin.ext (by match d with | ⟨0, _⟩ => rfl | ⟨1, _⟩ => rfl)
  have er : Read.idx_main_v27 (Read.ridx_main_v28 (ix2 b (col o k)) h) = ix3 h o k :=
    funext fun d => Fin.ext (by
      have hh := h.isLt; have ho := o.isLt; have hk := k.isLt
      match d with
      | ⟨0, _⟩ => show (h.val * 10240 + (o.val * 20 + k.val)) / 10240 = h.val; omega
      | ⟨1, _⟩ => show (h.val * 10240 + (o.val * 20 + k.val)) / 20 % 512 = o.val; omega
      | ⟨2, _⟩ => show (h.val * 10240 + (o.val * 20 + k.val)) % 20 = k.val; omega)
  rw [Read.val_main_v27_apply, el, er]

/-- The absolute difference at `(a, b, o, k)`: `|M[b, o, k] - M[a, o, k]|`, the absolute value being `max z (-z)`. -/
theorem absdiff_at (x0 : (⟨S128x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x512x20, .f32⟩ : BufTy).Contents (Elt Ideal)) (a b : Fin 128) (o : Fin 512) (k : Fin 20) :
    Read.val_main_v35 (F := Ideal) x0 x1 x2 x3 x4 x5 x6 x7 (ix4 a b o k)
      = max (Cert.Mbd.proj (Read.val_main_v26 (F := Ideal) x0 x1 x2 x3 x4 x5 x6) x7 b o k - Cert.Mbd.proj (Read.val_main_v26 (F := Ideal) x0 x1 x2 x3 x4 x5 x6) x7 a o k)
          (-(Cert.Mbd.proj (Read.val_main_v26 (F := Ideal) x0 x1 x2 x3 x4 x5 x6) x7 b o k - Cert.Mbd.proj (Read.val_main_v26 (F := Ideal) x0 x1 x2 x3 x4 x5 x6) x7 a o k)) := by
  have e1 : Read.idx_main_v30 (Read.idx_main_v32 (ix4 a b o k)) = ix3 b o k :=
    funext fun d => Fin.ext (by match d with | ⟨0, _⟩ => rfl | ⟨1, _⟩ => rfl | ⟨2, _⟩ => rfl)
  have e2 : Read.idx_main_v31 (Read.idx_main_v33 (ix4 a b o k)) = ix3 a o k :=
    funext fun d => Fin.ext (by match d with | ⟨0, _⟩ => rfl | ⟨1, _⟩ => rfl | ⟨2, _⟩ => rfl)
  rw [Read.val_main_v35_apply, Read.val_main_v34_apply, Read.val_main_v32_apply, Read.val_main_v33_apply,
    Read.val_main_v30_apply, Read.val_main_v31_apply, e1, e2, proj_at, proj_at]
  rfl

/-- The exponential of the negated distance at `(a, b, o)`. The sum over `k` starts from the zero word, which is `0`. -/
theorem expneg_at (x0 : (⟨S128x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x512x20, .f32⟩ : BufTy).Contents (Elt Ideal)) (a b : Fin 128) (o : Fin 512) :
    Read.val_main_v38 (F := Ideal) x0 x1 x2 x3 x4 x5 x6 x7 (ix3 a b o) = Ideal.exp (-(Cert.Mbd.dist (Read.val_main_v26 (F := Ideal) x0 x1 x2 x3 x4 x5 x6) x7 b a o)) := by
  have e : ∀ k : Fin 20, Read.idx_main_v36 (ix3 a b o) k = ix4 a b o k := fun k =>
    funext fun d => Fin.ext (by match d with | ⟨0, _⟩ => rfl | ⟨1, _⟩ => rfl | ⟨2, _⟩ => rfl | ⟨3, _⟩ => rfl)
  rw [Read.val_main_v38_apply, Read.val_main_v37_apply, Read.val_main_v36_apply, Read.val_main_cst_5_apply]
  simp only [e, absdiff_at]
  unfold Cert.Mbd.dist
  show Ideal.exp (-(Ideal.ofBits .f32 0x00000000#32 + _)) = _
  rw [Ideal.ofBits_zero_f32, zero_add]

/-- The discrimination stages of the reference are the specification's `feat` of the hidden layer. -/
theorem feat_eq (x0 : (⟨S128x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x512x20, .f32⟩ : BufTy).Contents (Elt Ideal)) :
    Read.val_main_v41 (F := Ideal) x0 x1 x2 x3 x4 x5 x6 x7 = Cert.Mbd.feat (Read.val_main_v26 (F := Ideal) x0 x1 x2 x3 x4 x5 x6) x7 := by
  funext j
  obtain ⟨b, o, rfl⟩ : ∃ (b : Fin 128) (o : Fin 512), j = ix2 b o := ⟨j 0, j 1, eq_ix2 j⟩
  have e : ∀ a : Fin 128, Read.idx_main_v39 (ix2 b o) a = ix3 a b o := fun a =>
    funext fun d => Fin.ext (by match d with | ⟨0, _⟩ => rfl | ⟨1, _⟩ => rfl | ⟨2, _⟩ => rfl)
  rw [Read.val_main_v41_apply, Read.val_main_v39_apply, Read.val_main_v40_apply, Read.val_main_cst_7_apply,
    Read.val_main_cst_6_apply, Cert.Mbd.feat_apply]
  simp only [e, expneg_at]
  unfold Cert.Mbd.featAt
  show (Ideal.ofBits .f32 0x00000000#32 + _) - _ = _
  rw [Ideal.ofBits_zero_f32, zero_add]
  rfl

/-- The reference's result: the hidden layer and its discrimination feature joined along the columns, times the last
    weight column, plus the last bias laid down the rows. -/
theorem res_eq (m : (ℓ : Loc nD τ sig) → Buf (Elt Ideal) ℓ) (c : Dev nD) :
    Cert.ReferenceIdeal.Value.res_main_v46 (F := Ideal) m c
      = addf (F := Ideal) (φ := .f32)
          (Host.dotGeneral (F := Ideal) (φ₁ := .f32) (φ₂ := .f32) dot_S128x1536_S1536x1_S128x1_1_0_0_1_n_n none
            (concatenate (α := Ideal .f32) S128x1536 1
              [⟨S128x1024, (Cert.Mbd.hidden (m ((c.tc : Thread nD τ).loc main_arg0)) (m ((c.tc : Thread nD τ).loc main_arg1)) (fun q => (m ((c.tc : Thread nD τ).loc main_arg2)) (ix1 q)) (m ((c.tc : Thread nD τ).loc main_arg3)) (fun q => (m ((c.tc : Thread nD τ).loc main_arg4)) (ix1 q)) (m ((c.tc : Thread nD τ).loc main_arg5)) (fun q => (m ((c.tc : Thread nD τ).loc main_arg6)) (ix1 q)))⟩,
               ⟨S128x512, Cert.Mbd.feat (Cert.Mbd.hidden (m ((c.tc : Thread nD τ).loc main_arg0)) (m ((c.tc : Thread nD τ).loc main_arg1)) (fun q => (m ((c.tc : Thread nD τ).loc main_arg2)) (ix1 q)) (m ((c.tc : Thread nD τ).loc main_arg3)) (fun q => (m ((c.tc : Thread nD τ).loc main_arg4)) (ix1 q)) (m ((c.tc : Thread nD τ).loc main_arg5)) (fun q => (m ((c.tc : Thread nD τ).loc main_arg6)) (ix1 q))) (m ((c.tc : Thread nD τ).loc main_arg7))⟩]
              concatenates_S128x1024_S128x512_S128x1536_d1)
            (m ((c.tc : Thread nD τ).loc main_arg8)))
          (broadcastInDim S128x1 ![0, 1] bcast_S1x1_S128x1_0_1 (broadcastInDim S1x1 ![1] bcast_S1_S1x1_1 (m ((c.tc : Thread nD τ).loc main_arg9)))) := by
  rw [Read.val_main_v46_eq]
  unfold Read.val_main_v46 Read.val_main_v43 Read.val_main_v42 Read.val_main_v45 Read.val_main_v44
  rw [feat_eq, hidden_eq]

end Cert.ReferenceIdeal.RefValue

end
-- ==== Proof.lean ====
/-
  The certificate's five claims.

  Both programs compute, on the extended reals, three dense layers with a leaky rectifier
  `h ↦ lrelu (h · W + b)`, then for every row `b` and feature `o` the minibatch-discrimination value
  `∑ a, exp (-(∑ k, |M[b, o, k] - M[a, o, k]|)) - 1` of `M[b, o, k] = ∑ h, H[b, h] · T[h, o, k]`, and finally the same
  host operations on both sides: the two arrays joined along the columns, a product with `Wc` and the bias `bc`.
  The kernel tiles the layers by column blocks, transposes `T` on the host, computes `M` one `k`-band at a time into a
  scratch and the pairwise distances 32 rows at a time; the reference flattens `T` to `[1024, 10240]`. Entry by entry the
  two are the same sums: only commutativity and associativity of `+` on the extended reals are used, never finiteness.
  A change of float format is the identity at this instance, and the product's precision annotation is not read.
-/
import proofs.«107311_j24532853195160_2_alg».proof.Defs
import proofs.«107311_j24532853195160_2_alg».proof.Proof.Gen.Kernel
import proofs.«107311_j24532853195160_2_alg».proof.Proof.Gen.Kernel.Skeleton
import proofs.«107311_j24532853195160_2_alg».proof.Proof.Gen.Kernel.Loops
import proofs.«107311_j24532853195160_2_alg».proof.Proof.Gen.Kernel.Launch
import proofs.«107311_j24532853195160_2_alg».proof.Proof.Gen.Kernel.Points
import proofs.«107311_j24532853195160_2_alg».proof.Proof.Gen.Kernel.Frame
import proofs.«107311_j24532853195160_2_alg».proof.Proof.Gen.KernelIdeal
import proofs.«107311_j24532853195160_2_alg».proof.Proof.Gen.KernelIdeal.Skeleton
import proofs.«107311_j24532853195160_2_alg».proof.Proof.Gen.KernelIdeal.Loops
import proofs.«107311_j24532853195160_2_alg».proof.Proof.Gen.KernelIdeal.Launch
import proofs.«107311_j24532853195160_2_alg».proof.Proof.Gen.KernelIdeal.Points
import proofs.«107311_j24532853195160_2_alg».proof.Proof.Gen.KernelIdeal.Frame
import proofs.«107311_j24532853195160_2_alg».proof.Proof.Gen.ReferenceIdeal
import proofs.«107311_j24532853195160_2_alg».proof.Proof.Gen.ReferenceIdeal.Run
import proofs.«107311_j24532853195160_2_alg».proof.Proof.Gen.Pre_finite_inputs
import proofs.«107311_j24532853195160_2_alg».proof.Proof.RunValue
import proofs.«107311_j24532853195160_2_alg».proof.Proof.KernelValue
import proofs.«107311_j24532853195160_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments: the generated frame of its four regions. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference is a host program: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same `[128, 1]` result: each side's result is the
    shared host tail applied to the three layers and to the discrimination feature of the launch arrays. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v13),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  show _ = Cert.KernelIdeal.Gen.W9 (F := Ideal) m ρ c (Proc.devRef .tc Cert.KernelIdeal.main_v13)
  rw [Cert.ReferenceIdeal.RefValue.res_eq, Cert.KernelIdeal.KernelValue.value, h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
